-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S2048x3072 : Shape := ⟨2, ![2048, 3072]⟩
abbrev S1024x3072 : Shape := ⟨2, ![1024, 3072]⟩
abbrev S3072 : Shape := ⟨1, ![3072]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2048x3072 : S_.BroadcastsInDim S2048x3072 (![] : Fin 0 → Fin S2048x3072.rank)
  reducesTo_S2048x3072_S_d0_1 : S2048x3072.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024x3072 .f32) (main_arg12 : FVec F S3072 .f32) (main_arg13 : FVec F S3072 .f32) (main_v48 : IVec S_ 1) (main_v49 : FVec F S2048x3072 .f32) (main_v50 : FVec F S2048x3072 .f32) : IVec S_ 1 :=
  let main_v51 : IVec S2048x3072 1 := cmpf .olt main_v49 main_v50
  let main_c_19 : IVec S_ 1 := constantI S_ 1 1#1
  let main_v52 : IVec S_ 1 := (fun x v => Host.reduce IntOp.andi x v reducesTo_S2048x3072_S_d0_1 h_S_) main_v51 main_c_19
  let main_v53 : IVec S_ 1 := andi main_v48 main_v52
  let main_v54 : FVec F S1024x3072 .f32 := Host.absf main_arg11
  let main_cst_20 : FVec F S_ .f32 := constant S_ .f32 0x7F800000#32
  let main_v55 : FVec F S1024x3072 .f32 := broadcastInDim S1024x3072 ![] bcast_S_S1024x3072 main_cst_20
  let main_v56 : IVec S1024x3072 1 := cmpf .olt main_v54 main_v55
  let main_c_21 : IVec S_ 1 := constantI S_ 1 1#1
  let main_v57 : IVec S_ 1 := (fun x v => Host.reduce IntOp.andi x v reducesTo_S1024x3072_S_d0_1 h_S_) main_v56 main_c_21
  let main_v58 : IVec S_ 1 := andi main_v53 main_v57
  let main_v59 : FVec F S3072 .f32 := Host.absf main_arg12
  let main_cst_22 : FVec F S_ .f32 := constant S_ .f32 0x7F800000#32
  let main_v60 : FVec F S3072 .f32 := broadcastInDim S3072 ![] bcast_S_S3072 main_cst_22
  let main_v61 : IVec S3072 1 := cmpf .olt main_v59 main_v60
  let main_c_23 : IVec S_ 1 := constantI S_ 1 1#1
  let main_v62 : IVec S_ 1 := (fun x v => Host.reduce IntOp.andi x v reducesTo_S3072_S_d0 h_S_) main_v61 main_c_23
  let main_v63 : IVec S_ 1 := andi main_v58 main_v62
  let main_v64 : FVec F S3072 .f32 := Host.absf main_arg13
  let main_cst_24 : FVec F S_ .f32 := constant S_ .f32 0x7F800000#32
  let main_v65 : FVec F S3072 .f32 := broadcastInDim S3072 ![] bcast_S_S3072 main_cst_24
  let main_v66 : IVec S3072 1 := cmpf .olt main_v64 main_v65
  let main_c_25 : IVec S_ 1 := constantI S_ 1 1#1
  let main_v67 : IVec S_ 1 := (fun x v => Host.reduce IntOp.andi x v reducesTo_S3072_S_d0 h_S_) main_v66 main_c_25
  fn_part4 (F := F) main_v63 main_v67

def fn_part2 {F : FTy → Type} [FloatOps F] (main_arg7 : FVec F S1024 .f32) (main_arg8 : FVec F S1024x1024 .f32) (main_arg9 : FVec F S1024 .f32) (main_arg10 : FVec F S2048x3072 .f32) (main_arg11 : FVec F S1024x3072 .f32) (main_arg12 : FVec F S3072 .f32) (main_arg13 : FVec F S3072 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S2048x3072 .f32 := Host.absf main_arg10
  let main_cst_18 : FVec F S_ .f32 := constant S_ .f32 0x7F800000#32
  let main_v50 : FVec F S2048x3072 .f32 := broadcastInDim S2048x3072 ![] bcast_S_S2048x3072 main_cst_18
  fn_part3 (F := F) main_arg11 main_arg12 main_arg13 main_v48 main_v49 main_v50

def fn_part1 {F : FTy → Type} [FloatOps F] (main_arg4 : FVec F S16384x1024 .f32) (main_arg5 : FVec F S16384x1024 .f32) (main_arg6 : FVec F S1024x1024 .f32) (main_arg7 : FVec F S1024 .f32) (main_arg8 : FVec F S1024x1024 .f32) (main_arg9 : FVec F S1024 .f32) (main_arg10 : FVec F S2048x3072 .f32) (main_arg11 : FVec F S1024x3072 .f32) (main_arg12 : FVec F S3072 .f32) (main_arg13 : FVec F S3072 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  let main_v24 : FVec F S16384x1024 .f32 := Host.absf main_arg5
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S16384x1024 .f32) (main_arg5 : FVec F S16384x1024 .f32) (main_arg6 : FVec F S1024x1024 .f32) (main_arg7 : FVec F S1024 .f32) (main_arg8 : FVec F S1024x1024 .f32) (main_arg9 : FVec F S1024 .f32) (main_arg10 : FVec F S2048x3072 .f32) (main_arg11 : FVec F S1024x3072 .f32) (main_arg12 : FVec F S3072 .f32) (main_arg13 : FVec F S3072 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S2048x3072 : Shape := ⟨2, ![2048, 3072]⟩
abbrev S1024x3072 : Shape := ⟨2, ![1024, 3072]⟩
abbrev S3072 : Shape := ⟨1, ![3072]⟩
abbrev S1024x2048 : Shape := ⟨2, ![1024, 2048]⟩
abbrev S2048 : Shape := ⟨1, ![2048]⟩
abbrev S1x2048 : Shape := ⟨2, ![1, 2048]⟩
abbrev S1x3072 : Shape := ⟨2, ![1, 3072]⟩
abbrev S128x1024 : Shape := ⟨2, ![128, 1024]⟩
abbrev S128x2048 : Shape := ⟨2, ![128, 2048]⟩
abbrev S128x3072 : Shape := ⟨2, ![128, 3072]⟩

abbrev nBuf : Space → Nat
  | .hbm => 28
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S2048x3072, .f32⟩
  | .hbm, ⟨11, _⟩ => ⟨S1024x3072, .f32⟩
  | .hbm, ⟨12, _⟩ => ⟨S3072, .f32⟩
  | .hbm, ⟨13, _⟩ => ⟨S3072, .f32⟩
  | .hbm, ⟨14, _⟩ => ⟨S1024x1024, .f32⟩
  | .hbm, ⟨15, _⟩ => ⟨S1024x1024, .f32⟩
  | .hbm, ⟨16, _⟩ => ⟨S1024x2048, .f32⟩
  | .hbm, ⟨17, _⟩ => ⟨S1024x2048, .bf16⟩
  | .hbm, ⟨18, _⟩ => ⟨S2048, .f32⟩
  | .hbm, ⟨19, _⟩ => ⟨S1x2048, .f32⟩
  | .hbm, ⟨20, _⟩ => ⟨S1024x3072, .f32⟩
  | .hbm, ⟨21, _⟩ => ⟨S1024x3072, .bf16⟩
  | .hbm, ⟨22, _⟩ => ⟨S1024x3072, .f32⟩
  | .hbm, ⟨23, _⟩ => ⟨S1024x3072, .bf16⟩
  | .hbm, ⟨24, _⟩ => ⟨S1024x3072, .bf16⟩
  | .hbm, ⟨25, _⟩ => ⟨S1x3072, .f32⟩
  | .hbm, ⟨26, _⟩ => ⟨S1x3072, .f32⟩
  | .hbm, ⟨27, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S1024x2048, .bf16⟩
  | .local _ .vmem, ⟨13, _⟩ => ⟨S1x2048, .f32⟩
  | .local _ .vmem, ⟨14, _⟩ => ⟨S1024x3072, .bf16⟩
  | .local _ .vmem, ⟨15, _⟩ => ⟨S1024x3072, .bf16⟩
  | .local _ .vmem, ⟨16, _⟩ => ⟨S1x3072, .f32⟩
  | .local _ .vmem, ⟨17, _⟩ => ⟨S1024x3072, .bf16⟩
  | .local _ .vmem, ⟨18, _⟩ => ⟨S1x3072, .f32⟩
  | .local _ .vmem, ⟨19, _⟩ => ⟨S128x1024, .f32⟩
  | .local _ .vmem, ⟨20, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S1024x1024_S1024x1024_1_0 : S1024x1024.Transposes [1, 0] S1024x1024
  concatenates_S1024x1024_S1024x1024_S1024x2048_d1 : Shape.Concatenates [S1024x1024, S1024x1024] S1024x2048 1
  bitsLt_bf16_f32 : FTy.bits .bf16 < FTy.bits .f32
  concatenates_S1024_S1024_S2048_d0 : Shape.Concatenates [S1024, S1024] S2048 0
  shapeCasts_S2048_S1x2048 : S2048.ShapeCasts S1x2048
  slices_S2048x3072_S1024x3072_0_0 : S2048x3072.Slices ![0, 0] S1024x3072
  slices_S2048x3072_S1024x3072_1024_0 : S2048x3072.Slices ![1024, 0] S1024x3072
  shapeCasts_S3072_S1x3072 : S3072.ShapeCasts S1x3072
  inb_S128x1024_S128x1024_0_0 : ∀ a, (![0, 0] : Fin 2 → Nat) a + S128x1024.size a ≤ S128x1024.size a
  h_S128x1024 : 0 < S128x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  slices_S128x2048_o0_0_S128x1024 : S128x2048.Slices ![0, 0] S128x1024
  slices_S128x2048_o0_1024_S128x1024 : S128x2048.Slices ![0, 1024] S128x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S128x3072 : S1x3072.Broadcasts S128x3072
  slices_S128x3072_o0_0_S128x1024 : S128x3072.Slices ![0, 0] S128x1024
  slices_S128x3072_o0_1024_S128x1024 : S128x3072.Slices ![0, 1024] S128x1024
  slices_S128x3072_o0_2048_S128x1024 : S128x3072.Slices ![0, 2048] S128x1024
  dot_S128x1024_S1024x2048_S128x2048_1_0_0_1_n_n_wf : DotDims.WF S128x1024 S1024x2048 S128x2048 [1] [0] [0] [1] [] []
  dot_S128x1024_S1024x3072_S128x3072_1_0_0_1_n_n_wf : DotDims.WF S128x1024 S1024x3072 S128x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S16384x1024.size a
  hwx0_3 : ∀ i : grid0.Coords, EltTy.bits .f32 = 32 ∨ (Rect.block (s := S16384x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S16384x1024.size a
  hwx0_4 : ∀ i : grid0.Coords, EltTy.bits .f32 = 32 ∨ (Rect.block (s := S16384x1024) S128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S16384x1024.size a
  hwx0_5 : ∀ i : grid0.Coords, EltTy.bits .f32 = 32 ∨ (Rect.block (s := S16384x1024) S128x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S1024x2048.size a
  hwx0_6 : ∀ i : grid0.Coords, EltTy.bits .bf16 = 32 ∨ (Rect.block (s := S1024x2048) S1024x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x3072.size a ≤ S1024x3072.size a
  hwx0_8 : ∀ i : grid0.Coords, EltTy.bits .bf16 = 32 ∨ (Rect.block (s := S1024x3072) S1024x3072.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x3072.size a ≤ S1024x3072.size a
  hwx0_9 : ∀ i : grid0.Coords, EltTy.bits .bf16 = 32 ∨ (Rect.block (s := S1024x3072) S1024x3072.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3072.size a ≤ S1x3072.size a
  hwx0_10 : ∀ i : grid0.Coords, EltTy.bits .f32 = 32 ∨ (Rect.block (s := S1x3072) S1x3072.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x3072.size a ≤ S1024x3072.size a
  hwx0_11 : ∀ i : grid0.Coords, EltTy.bits .bf16 = 32 ∨ (Rect.block (s := S1024x3072) S1024x3072.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x3072.size a ≤ S1x3072.size a
  hwx0_12 : ∀ i : grid0.Coords, EltTy.bits .f32 = 32 ∨ (Rect.block (s := S1x3072) S1x3072.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x1024.size a ≤ S16384x1024.size a
  hwx0_13 : ∀ i : grid0.Coords, EltTy.bits .f32 = 32 ∨ (Rect.block (s := S16384x1024) S128x1024.size (cc0_transform_13 i) (hinb0_13 i)).WholeWords (EltTy.packing .f32)

variable [Facts₀]

def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x1024_S1024x3072_S128x3072_1_0_0_1_n_n : DotDims S128x1024 S1024x3072 S128x3072 where
  lhsContracting := [1]
  rhsContracting := [0]
  lhsNonContracting := [0]
  rhsNonContracting := [1]
  lhsBatch := []
  rhsBatch := []
  wf := dot_S128x1024_S1024x3072_S128x3072_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1024x3072.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1024x3072.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x3072.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1024x3072.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x3072.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S128x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S2048x3072 : Shape := ⟨2, ![2048, 3072]⟩
abbrev S1024x3072 : Shape := ⟨2, ![1024, 3072]⟩
abbrev S3072 : Shape := ⟨1, ![3072]⟩
abbrev S1x1024 : Shape := ⟨2, ![1, 1024]⟩
abbrev S_ : Shape := ⟨0, ![]⟩
abbrev S16384x2048 : Shape := ⟨2, ![16384, 2048]⟩
abbrev S16384x3072 : Shape := ⟨2, ![16384, 3072]⟩
abbrev S1x3072 : Shape := ⟨2, ![1, 3072]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S2048x3072, .f32⟩
  | .hbm, ⟨11, _⟩ => ⟨S1024x3072, .f32⟩
  | .hbm, ⟨12, _⟩ => ⟨S3072, .f32⟩
  | .hbm, ⟨13, _⟩ => ⟨S3072, .f32⟩
  | .hbm, ⟨14, _⟩ => ⟨S1024x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1024x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x2048, .f32⟩
  | .hbm, ⟨48, _⟩ => ⟨S16384x3072, .f32⟩
  | .hbm, ⟨49, _⟩ => ⟨S1x3072, .f32⟩
  | .hbm, ⟨50, _⟩ => ⟨S16384x3072, .f32⟩
  | .hbm, ⟨51, _⟩ => ⟨S16384x3072, .f32⟩
  | .hbm, ⟨52, _⟩ => ⟨S16384x3072, .f32⟩
  | .hbm, ⟨53, _⟩ => ⟨S1x3072, .f32⟩
  | .hbm, ⟨54, _⟩ => ⟨S16384x3072, .f32⟩
  | .hbm, ⟨55, _⟩ => ⟨S16384x3072, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_cst : Ref sig .tc := ⟨.hbm, 29, rfl⟩
abbrev main_call1_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_1 : Ref sig .tc := ⟨.hbm, 65, rfl⟩
abbrev main_v45 : Ref sig .tc := ⟨.hbm, 66, rfl⟩
abbrev main_v46 : Ref sig .tc := ⟨.hbm, 67, rfl⟩
abbrev main_cst_2 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_3 : Ref sig .tc := ⟨.hbm, 74, rfl⟩
abbrev main_v52 : Ref sig .tc := ⟨.hbm, 75, rfl⟩
abbrev main_v53 : Ref sig .tc := ⟨.hbm, 76, rfl⟩
abbrev main_cst_4 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_5 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  concatenates_S16384x1024_S16384x1024_S16384x2048_d1 : Shape.Concatenates [S16384x1024, S16384x1024] S16384x2048 1
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  dot_S16384x1024_S1024x1024_S16384x1024_1_0_0_1_n_n_wf : DotDims.WF S16384x1024 S1024x1024 S16384x1024 [1] [0] [0] [1] [] []
  dot_S16384x2048_S2048x3072_S16384x3072_1_0_0_1_n_n_wf : DotDims.WF S16384x2048 S2048x3072 S16384x3072 [1] [0] [0] [1] [] []
  dot_S16384x1024_S1024x3072_S16384x3072_1_0_0_1_n_n_wf : DotDims.WF S16384x1024 S1024x3072 S16384x3072 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x2048_S2048x3072_S16384x3072_1_0_0_1_n_n : DotDims S16384x2048 S2048x3072 S16384x3072 where
  lhsContracting := [1]
  rhsContracting := [0]
  lhsNonContracting := [0]
  rhsNonContracting := [1]
  lhsBatch := []
  rhsBatch := []
  wf := dot_S16384x2048_S2048x3072_S16384x3072_1_0_0_1_n_n_wf
def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf

class Facts : Prop extends Facts₀ where

variable [Facts]
-- ==== Proof.MatmulAt.lean ====
/-
  The kernel's matrix products read at an entry.

  Each `tpu.matmul` of the body multiplies a [128, 1024] block of rows by a whole [1024, N] weight matrix into a zero
  accumulator (N = 2048 for the two decay gates' joined weights, N = 3072 for the three GRU products). On the extended
  reals its entry (p, q) is the plain sum over the 1024 contracted positions of row `p` of the left operand against
  column `q` of the right: the zero accumulator adds nothing, and the one contracted axis is re-indexed by its coordinate.
-/
import proofs.«124623_j75462575390850_2_alg».proof.Proof.Gen.KernelIdeal
import Idealize.ShloMosaic.Lib.ValueIdx
import Idealize.ShloMosaic.PureOps.Ideal.Laws

noncomputable section

namespace Cert.KernelIdeal.Bridge

open Cert.KernelIdeal Idealize.ShloMosaic Idealize.ShloMosaic.ValueIdx

theorem matmul_gates_lhs0 (i : S128x2048.Idx) (q : dot_S128x1024_S1024x2048_S128x2048_1_0_0_1_n_n.contr.Idx) : (dot_S128x1024_S1024x2048_S128x2048_1_0_0_1_n_n.lhsIdx i q 0).val = (i 0).val := by
  unfold DotDims.lhsIdx
  rw [dif_neg (show ¬(0 : Fin S128x1024.rank) ∈ dot_S128x1024_S1024x2048_S128x2048_1_0_0_1_n_n.lhsBatch by decide), dif_pos (show (0 : Fin S128x1024.rank) ∈ dot_S128x1024_S1024x2048_S128x2048_1_0_0_1_n_n.lhsNonContracting by decide)]
  rfl
theorem matmul_gates_lhs1 (i : S128x2048.Idx) (q : dot_S128x1024_S1024x2048_S128x2048_1_0_0_1_n_n.contr.Idx) : (dot_S128x1024_S1024x2048_S128x2048_1_0_0_1_n_n.lhsIdx i q 1).val = (q ⟨0, by decide⟩).val :=
  dot_S128x1024_S1024x2048_S128x2048_1_0_0_1_n_n.lhsIdx_val_of_single rfl i q
theorem matmul_gates_rhs0 (i : S128x2048.Idx) (q : dot_S128x1024_S1024x2048_S128x2048_1_0_0_1_n_n.contr.Idx) : (dot_S128x1024_S1024x2048_S128x2048_1_0_0_1_n_n.rhsIdx i q 0).val = (q ⟨0, by decide⟩).val :=
  dot_S128x1024_S1024x2048_S128x2048_1_0_0_1_n_n.rhsIdx_val_of_single rfl i q
theorem matmul_gates_rhs1 (i : S128x2048.Idx) (q : dot_S128x1024_S1024x2048_S128x2048_1_0_0_1_n_n.contr.Idx) : (dot_S128x1024_S1024x2048_S128x2048_1_0_0_1_n_n.rhsIdx i q 1).val = (i 1).val := by
  unfold DotDims.rhsIdx
  rw [dif_neg (show ¬(1 : Fin S1024x2048.rank) ∈ dot_S128x1024_S1024x2048_S128x2048_1_0_0_1_n_n.rhsBatch by decide), dif_pos (show (1 : Fin S1024x2048.rank) ∈ dot_S128x1024_S1024x2048_S128x2048_1_0_0_1_n_n.rhsNonContracting by decide)]
  rfl

/-- A [128, 1024] × [1024, 2048] product into a zero accumulator, at (p, q): row `p` of the left operand against column `q` of
    the right. -/
theorem matmul_gates (a : FVec Ideal S128x1024 .bf16) (b : FVec Ideal S1024x2048 .bf16) (p : Fin 128) (q : Fin 2048) :
    matmul dot_S128x1024_S1024x2048_S128x2048_1_0_0_1_n_n none a b (constant S128x2048 .f32 0x00000000#32) (ix2 p q) = ∑ k : Fin 1024, a (ix2 p k) * b (ix2 k q) := by
  show FloatOps.matmul dot_S128x1024_S1024x2048_S128x2048_1_0_0_1_n_n none a b (constant (F := Ideal) S128x2048 .f32 0x00000000#32) (ix2 p q) = _
  rw [Ideal.matmul_constant_zero_apply, ← Equiv.sum_comp (contrEquiv1 dot_S128x1024_S1024x2048_S128x2048_1_0_0_1_n_n 1024 rfl rfl).symm]
  refine Finset.sum_congr rfl fun k _ => ?_
  have hk := contrEquiv1_symm_val dot_S128x1024_S1024x2048_S128x2048_1_0_0_1_n_n 1024 rfl rfl k
  have el : dot_S128x1024_S1024x2048_S128x2048_1_0_0_1_n_n.lhsIdx (ix2 p q) ((contrEquiv1 dot_S128x1024_S1024x2048_S128x2048_1_0_0_1_n_n 1024 rfl rfl).symm k) = ix2 p k := funext fun c => Fin.ext (by
    match c with
    | ⟨0, _⟩ => exact matmul_gates_lhs0 _ _
    | ⟨1, _⟩ => exact (matmul_gates_lhs1 _ _).trans hk)
  have er : dot_S128x1024_S1024x2048_S128x2048_1_0_0_1_n_n.rhsIdx (ix2 p q) ((contrEquiv1 dot_S128x1024_S1024x2048_S128x2048_1_0_0_1_n_n 1024 rfl rfl).symm k) = ix2 k q := funext fun c => Fin.ext (by
    match c with
    | ⟨0, _⟩ => exact (matmul_gates_rhs0 _ _).trans hk
    | ⟨1, _⟩ => exact matmul_gates_rhs1 _ _)
  rw [el, er]

theorem matmul_gru_lhs0 (i : S128x3072.Idx) (q : dot_S128x1024_S1024x3072_S128x3072_1_0_0_1_n_n.contr.Idx) : (dot_S128x1024_S1024x3072_S128x3072_1_0_0_1_n_n.lhsIdx i q 0).val = (i 0).val := by
  unfold DotDims.lhsIdx
  rw [dif_neg (show ¬(0 : Fin S128x1024.rank) ∈ dot_S128x1024_S1024x3072_S128x3072_1_0_0_1_n_n.lhsBatch by decide), dif_pos (show (0 : Fin S128x1024.rank) ∈ dot_S128x1024_S1024x3072_S128x3072_1_0_0_1_n_n.lhsNonContracting by decide)]
  rfl
theorem matmul_gru_lhs1 (i : S128x3072.Idx) (q : dot_S128x1024_S1024x3072_S128x3072_1_0_0_1_n_n.contr.Idx) : (dot_S128x1024_S1024x3072_S128x3072_1_0_0_1_n_n.lhsIdx i q 1).val = (q ⟨0, by decide⟩).val :=
  dot_S128x1024_S1024x3072_S128x3072_1_0_0_1_n_n.lhsIdx_val_of_single rfl i q
theorem matmul_gru_rhs0 (i : S128x3072.Idx) (q : dot_S128x1024_S1024x3072_S128x3072_1_0_0_1_n_n.contr.Idx) : (dot_S128x1024_S1024x3072_S128x3072_1_0_0_1_n_n.rhsIdx i q 0).val = (q ⟨0, by decide⟩).val :=
  dot_S128x1024_S1024x3072_S128x3072_1_0_0_1_n_n.rhsIdx_val_of_single rfl i q
theorem matmul_gru_rhs1 (i : S128x3072.Idx) (q : dot_S128x1024_S1024x3072_S128x3072_1_0_0_1_n_n.contr.Idx) : (dot_S128x1024_S1024x3072_S128x3072_1_0_0_1_n_n.rhsIdx i q 1).val = (i 1).val := by
  unfold DotDims.rhsIdx
  rw [dif_neg (show ¬(1 : Fin S1024x3072.rank) ∈ dot_S128x1024_S1024x3072_S128x3072_1_0_0_1_n_n.rhsBatch by decide), dif_pos (show (1 : Fin S1024x3072.rank) ∈ dot_S128x1024_S1024x3072_S128x3072_1_0_0_1_n_n.rhsNonContracting by decide)]
  rfl

/-- A [128, 1024] × [1024, 3072] product into a zero accumulator, at (p, q): row `p` of the left operand against column `q` of
    the right. -/
theorem matmul_gru (a : FVec Ideal S128x1024 .bf16) (b : FVec Ideal S1024x3072 .bf16) (p : Fin 128) (q : Fin 3072) :
    matmul dot_S128x1024_S1024x3072_S128x3072_1_0_0_1_n_n none a b (constant S128x3072 .f32 0x00000000#32) (ix2 p q) = ∑ k : Fin 1024, a (ix2 p k) * b (ix2 k q) := by
  show FloatOps.matmul dot_S128x1024_S1024x3072_S128x3072_1_0_0_1_n_n none a b (constant (F := Ideal) S128x3072 .f32 0x00000000#32) (ix2 p q) = _
  rw [Ideal.matmul_constant_zero_apply, ← Equiv.sum_comp (contrEquiv1 dot_S128x1024_S1024x3072_S128x3072_1_0_0_1_n_n 1024 rfl rfl).symm]
  refine Finset.sum_congr rfl fun k _ => ?_
  have hk := contrEquiv1_symm_val dot_S128x1024_S1024x3072_S128x3072_1_0_0_1_n_n 1024 rfl rfl k
  have el : dot_S128x1024_S1024x3072_S128x3072_1_0_0_1_n_n.lhsIdx (ix2 p q) ((contrEquiv1 dot_S128x1024_S1024x3072_S128x3072_1_0_0_1_n_n 1024 rfl rfl).symm k) = ix2 p k := funext fun c => Fin.ext (by
    match c with
    | ⟨0, _⟩ => exact matmul_gru_lhs0 _ _
    | ⟨1, _⟩ => exact (matmul_gru_lhs1 _ _).trans hk)
  have er : dot_S128x1024_S1024x3072_S128x3072_1_0_0_1_n_n.rhsIdx (ix2 p q) ((contrEquiv1 dot_S128x1024_S1024x3072_S128x3072_1_0_0_1_n_n 1024 rfl rfl).symm k) = ix2 k q := funext fun c => Fin.ext (by
    match c with
    | ⟨0, _⟩ => exact (matmul_gru_rhs0 _ _).trans hk
    | ⟨1, _⟩ => exact matmul_gru_rhs1 _ _)
  rw [el, er]

end Cert.KernelIdeal.Bridge

end
-- ==== Proof.Spec.lean ====
/-
  The mathematics both programs compute, on the extended reals, one output element at a time.

  For a batch row `n` and a hidden column `j` (1024 columns), with `δ` the time gaps, `m` the observation mask:
    • two decay gates   γ = exp (−max (∑ₖ δ(n,k)·W(j,k) + b(j), 0)),   one for the input (γx), one for the state (γh);
    • the imputed input x̂ = m·x + (1 − m)·(γx·x_last + (1 − γx)·x_mean), and the decayed state h = γh·hs;
    • the GRU pre-activations gi = [x̂ | m]·W_ih + b_ih (a contraction over 2048 = 1024 + 1024 columns) and
      gh = h·W_hh + b_hh, each 3072 wide: the reset, update and candidate thirds;
    • r = σ(gi_r + gh_r), z = σ(gi_z + gh_z), c = tanh (gi_n + r·gh_n), and the result (1 − z)·c + z·h.
  The two programs differ in three spellings only, and this file has the law for each:
    • a contraction over the 2048 joined columns against two contractions over 1024 columns, added (`sum_split`:
      a finite sum in a commutative monoid, cut in two);
    • `0 − x` against `−x` (`decay_sub`);
    • the logistic function as one operation against `1 / (1 + exp (−x))` spelt out (`cell_logistic`).
  None of them distributes a product over a sum or cancels anything, so none needs its arguments finite.
-/
import Idealize.ShloMosaic.PureOps.Ideal.Laws
import Idealize.ShloMosaic.Lib.IdealHost
import Idealize.ShloMosaic.Lib.ValueIdx

noncomputable section

namespace GruD

open Idealize.ShloMosaic

/-! ## Columns: a hidden column inside the joined widths -/

/-- Column `j` of the first half of 2048 joined columns. -/
abbrev lo2 (j : Fin 1024) : Fin 2048 := ⟨j.val, by have := j.isLt; omega⟩
/-- Column `j` of the second half of 2048 joined columns. -/
abbrev hi2 (j : Fin 1024) : Fin 2048 := ⟨1024 + j.val, by have := j.isLt; omega⟩
/-- Column `j` of the reset third of 3072 gate columns. -/
abbrev c0 (j : Fin 1024) : Fin 3072 := ⟨j.val, by have := j.isLt; omega⟩
/-- Column `j` of the update third. -/
abbrev c1 (j : Fin 1024) : Fin 3072 := ⟨1024 + j.val, by have := j.isLt; omega⟩
/-- Column `j` of the candidate third. -/
abbrev c2 (j : Fin 1024) : Fin 3072 := ⟨2048 + j.val, by have := j.isLt; omega⟩

/-- A sum over 2048 joined columns is the sum over the first 1024 plus the sum over the last 1024. -/
theorem sum_split (f : Fin 2048 → EReal) :
    ∑ k : Fin 2048, f k = (∑ k : Fin 1024, f (lo2 k)) + ∑ k : Fin 1024, f (hi2 k) := by
  have h := Fin.sum_univ_add (a := 1024) (b := 1024) (f : Fin (1024 + 1024) → EReal)
  refine h.trans ?_
  refine congrArg₂ (· + ·) (Finset.sum_congr rfl fun k _ => congrArg f (Fin.ext rfl))
    (Finset.sum_congr rfl fun k _ => congrArg f (Fin.ext rfl))

/-! ## The three scalar formulas -/

/-- A decay gate from its linear pre-activation `s`: `exp (−max (s, 0))`, the zero as the programs spell it. -/
def decay (zero s : EReal) : EReal := Ideal.exp (-(max s zero))

/-- The same with the negation spelt `0 − x`. -/
def decaySub (zero s : EReal) : EReal := Ideal.exp (zero - max s zero)

/-- The imputed input: the observation where the mask is one, else the decayed blend of the last observation and the mean. -/
def blend (one mk x γ xl xm : EReal) : EReal := mk * x + (one - mk) * (γ * xl + (one - γ) * xm)

/-- The GRU cell from the six gate pre-activations and the decayed state, the logistic function spelt out. -/
def cell (one gir ghr giz ghz gin ghn h : EReal) : EReal :=
  (one - Ideal.div one (one + Ideal.exp (-(giz + ghz)))) * Ideal.tanh (gin + Ideal.div one (one + Ideal.exp (-(gir + ghr))) * ghn)
    + Ideal.div one (one + Ideal.exp (-(giz + ghz))) * h

/-- The same with the logistic function as one operation. -/
def cellLogistic (one gir ghr giz ghz gin ghn h : EReal) : EReal :=
  (one - Ideal.logistic (giz + ghz)) * Ideal.tanh (gin + Ideal.logistic (gir + ghr) * ghn) + Ideal.logistic (giz + ghz) * h

/-- `0 − x = −x` on the extended reals, at the float word of zero. -/
theorem decay_sub (s : EReal) :
    decaySub (Ideal.ofBits .f32 0x00000000#32) s = decay (Ideal.ofBits .f32 0x00000000#32) s := by
  unfold decaySub decay
  rw [Ideal.ofBits_zero_f32, zero_sub]

/-- The logistic function is `1 / (1 + exp (−x))`, at the float word of one. -/
theorem cell_logistic (gir ghr giz ghz gin ghn h : EReal) :
    cellLogistic (Ideal.ofBits .f32 0x3F800000#32) gir ghr giz ghz gin ghn h
      = cell (Ideal.ofBits .f32 0x3F800000#32) gir ghr giz ghz gin ghn h := by
  unfold cellLogistic cell Ideal.logistic
  rw [Ideal.ofBits_one_f32]

end GruD

end
-- ==== Proof.KernelStages.lean ====
/-
  The kernel body's values read at a row `p` of the block and a column, as the formulas of Spec.lean, over the
  blocks the body loads.

  The body makes BOTH decay gates' pre-activations in one product: the block of δ against the joined weights
  [Wxᵀ | Whᵀ] (1024 × 2048) plus the joined bias, so that column `j` of the first half is the input gate's and
  column `1024 + j` the state gate's (`pre_gates`, and the two gates `gate_h`, `imputed` off the two halves, with the
  negation spelt `0 − x`). It makes the input pre-activations as TWO products, the imputed input against the first 1024
  rows of W_ih and the mask against the last 1024, added (`preI`), the state pre-activations as one (`preH`), and the
  result as the GRU cell of their three thirds, the logistic function one operation (`result`).
  A change of float format is the identity on the extended reals, so the roundings to bf16 around the products vanish.
-/
import proofs.«124623_j75462575390850_2_alg».proof.Proof.Gen.KernelIdeal.Skeleton
import proofs.«124623_j75462575390850_2_alg».proof.Proof.MatmulAt
import proofs.«124623_j75462575390850_2_alg».proof.Proof.Spec
import Idealize.ShloMosaic.Lib.Pipeline.Value

noncomputable section

namespace Cert.KernelIdeal.Bridge

open Cert.KernelIdeal Cert.KernelIdeal.Gen Idealize.ShloMosaic Idealize.ShloMosaic.ValueIdx GruD

/-- The float word of zero and of one, as extended reals. -/
abbrev zeroW : EReal := Ideal.ofBits .f32 0x00000000#32
abbrev oneW : EReal := Ideal.ofBits .f32 0x3F800000#32

/-! ## The halves and thirds of a wide value -/

theorem half_lo (x : FVec Ideal S128x2048 .f32) (h : S128x2048.Slices ![0, 0] S128x1024) (p : Fin 128) (j : Fin 1024) :
    extractStridedSlice S128x1024 ![0, 0] x h (ix2 p j) = x (ix2 p (lo2 j)) :=
  extractStridedSlice_apply ![0, 0] x h (ix2 p j) (ix2 p (lo2 j)) (fun a => by
    match a with
    | ⟨0, _⟩ => show p.val = 0 + p.val; omega
    | ⟨1, _⟩ => show j.val = 0 + j.val; omega)

theorem half_hi (x : FVec Ideal S128x2048 .f32) (h : S128x2048.Slices ![0, 1024] S128x1024) (p : Fin 128) (j : Fin 1024) :
    extractStridedSlice S128x1024 ![0, 1024] x h (ix2 p j) = x (ix2 p (hi2 j)) :=
  extractStridedSlice_apply ![0, 1024] x h (ix2 p j) (ix2 p (hi2 j)) (fun a => by
    match a with
    | ⟨0, _⟩ => show p.val = 0 + p.val; omega
    | ⟨1, _⟩ => rfl)

theorem third0 (x : FVec Ideal S128x3072 .f32) (h : S128x3072.Slices ![0, 0] S128x1024) (p : Fin 128) (j : Fin 1024) :
    extractStridedSlice S128x1024 ![0, 0] x h (ix2 p j) = x (ix2 p (c0 j)) :=
  extractStridedSlice_apply ![0, 0] x h (ix2 p j) (ix2 p (c0 j)) (fun a => by
    match a with
    | ⟨0, _⟩ => show p.val = 0 + p.val; omega
    | ⟨1, _⟩ => show j.val = 0 + j.val; omega)

theorem third1 (x : FVec Ideal S128x3072 .f32) (h : S128x3072.Slices ![0, 1024] S128x1024) (p : Fin 128) (j : Fin 1024) :
    extractStridedSlice S128x1024 ![0, 1024] x h (ix2 p j) = x (ix2 p (c1 j)) :=
  extractStridedSlice_apply ![0, 1024] x h (ix2 p j) (ix2 p (c1 j)) (fun a => by
    match a with
    | ⟨0, _⟩ => show p.val = 0 + p.val; omega
    | ⟨1, _⟩ => rfl)

theorem third2 (x : FVec Ideal S128x3072 .f32) (h : S128x3072.Slices ![0, 2048] S128x1024) (p : Fin 128) (j : Fin 1024) :
    extractStridedSlice S128x1024 ![0, 2048] x h (ix2 p j) = x (ix2 p (c2 j)) :=
  extractStridedSlice_apply ![0, 2048] x h (ix2 p j) (ix2 p (c2 j)) (fun a => by
    match a with
    | ⟨0, _⟩ => show p.val = 0 + p.val; omega
    | ⟨1, _⟩ => rfl)

/-- A one-row bias laid along every row of a block, read at (p, q), is the bias at q. -/
theorem bias_row {N : Nat} (b : (⟨2, ![1, N]⟩ : Shape).Idx → EReal) (h : (⟨2, ![1, N]⟩ : Shape).Broadcasts ⟨2, ![128, N]⟩)
    (hN : N ≠ 1) (p : Fin 128) (q : Fin N) :
    broadcastTo ⟨2, ![128, N]⟩ b h (ix2 p q) = b (ix2 (0 : Fin 1) q) :=
  broadcastTo_apply b h (ix2 p q) (ix2 (0 : Fin 1) q) (fun a => by
    match a with
    | ⟨0, _⟩ => rfl
    | ⟨1, _⟩ => show q.val = if N = 1 then 0 else q.val; rw [if_neg hN])

/-! ## The decay gates -/

/-- Entry (p, q) of the joined decay pre-activations: row `p` of the δ block against column `q` of the joined weights, plus
    the joined bias at `q`. -/
theorem pre_gates (v0 : Vec Ideal S128x1024 .f32) (v2 : Vec Ideal S1024x2048 .bf16) (v5 : Vec Ideal S1x2048 .f32) (p : Fin 128) (q : Fin 2048) :
    k0_pay2 (F := Ideal) v0 v2 v5 (ix2 p q) = (∑ k : Fin 1024, v0 (ix2 p k) * v2 (ix2 k q)) + v5 (ix2 (0 : Fin 1) q) := by
  unfold k0_pay2
  show (_ : EReal) + _ = _
  refine congrArg₂ (· + ·) ?_ ?_
  · rw [shapeCast_self]
    exact matmul_gates _ _ p q
  · rw [shapeCast_self]
    exact bias_row _ _ (by decide) p q

/-- The state's decay gate, off the second half of the joined pre-activations. -/
theorem gate_h (v0 : Vec Ideal S128x1024 .f32) (v2 : Vec Ideal S1024x2048 .bf16) (v5 : Vec Ideal S1x2048 .f32) (p : Fin 128) (j : Fin 1024) :
    k0_pay3 (F := Ideal) v0 v2 v5 (ix2 p j) = decaySub zeroW (k0_pay2 (F := Ideal) v0 v2 v5 (ix2 p (hi2 j))) := by
  unfold k0_pay3
  exact congrArg (fun s => decaySub zeroW s) (half_hi _ _ p j)

/-- The imputed input, the input's decay gate off the first half of the joined pre-activations. -/
theorem imputed (v0 : Vec Ideal S128x1024 .f32) (v2 : Vec Ideal S1024x2048 .bf16) (v5 : Vec Ideal S1x2048 .f32)
    (v21 v22 v23 v24 : Vec Ideal S128x1024 .f32) (p : Fin 128) (j : Fin 1024) :
    k0_pay4 (F := Ideal) v0 v2 v5 v21 v22 v23 v24 (ix2 p j)
      = blend oneW (v22 (ix2 p j)) (v21 (ix2 p j)) (decaySub zeroW (k0_pay2 (F := Ideal) v0 v2 v5 (ix2 p (lo2 j))))
          (v23 (ix2 p j)) (v24 (ix2 p j)) := by
  unfold k0_pay4
  exact congrArg (fun s => blend oneW (v22 (ix2 p j)) (v21 (ix2 p j)) (decaySub zeroW s) (v23 (ix2 p j)) (v24 (ix2 p j)))
    (half_lo _ _ p j)

/-! ## The GRU pre-activations and the result -/

/-- The input pre-activations of a block: the imputed input against the first rows of W_ih, plus the mask against the
    last rows, plus the bias along every row. -/
def preI (v34 v22 : Vec Ideal S128x1024 .f32) (v39 v42 : Vec Ideal S1024x3072 .bf16) (v46 : Vec Ideal S1x3072 .f32) : FVec Ideal S128x3072 .f32 :=
  addf (addf
      (matmul dot_S128x1024_S1024x3072_S128x3072_1_0_0_1_n_n none (truncf .bf16 v34 bitsLt_bf16_f32)
        (shapeCast S1024x3072 v39 shapeCasts_S1024x3072_S1024x3072 : FVec Ideal S1024x3072 .bf16) (constant S128x3072 .f32 0x00000000#32))
      (matmul dot_S128x1024_S1024x3072_S128x3072_1_0_0_1_n_n none (truncf .bf16 v22 bitsLt_bf16_f32)
        (shapeCast S1024x3072 v42 shapeCasts_S1024x3072_S1024x3072 : FVec Ideal S1024x3072 .bf16) (constant S128x3072 .f32 0x00000000#32)))
    (broadcastTo S128x3072 (shapeCast S1x3072 v46 shapeCasts_S1x3072_S1x3072 : FVec Ideal S1x3072 .f32) broadcasts_S1x3072_S128x3072)

/-- The state pre-activations of a block: the decayed state against W_hh, plus the bias along every row. -/
def preH (h : FVec Ideal S128x1024 .f32) (v51 : Vec Ideal S1024x3072 .bf16) (v54 : Vec Ideal S1x3072 .f32) : FVec Ideal S128x3072 .f32 :=
  addf
    (matmul dot_S128x1024_S1024x3072_S128x3072_1_0_0_1_n_n none (truncf .bf16 h bitsLt_bf16_f32)
      (shapeCast S1024x3072 v51 shapeCasts_S1024x3072_S1024x3072 : FVec Ideal S1024x3072 .bf16) (constant S128x3072 .f32 0x00000000#32))
    (broadcastTo S128x3072 (shapeCast S1x3072 v54 shapeCasts_S1x3072_S1x3072 : FVec Ideal S1x3072 .f32) broadcasts_S1x3072_S128x3072)

theorem preI_apply (v34 v22 : Vec Ideal S128x1024 .f32) (v39 v42 : Vec Ideal S1024x3072 .bf16) (v46 : Vec Ideal S1x3072 .f32)
    (p : Fin 128) (q : Fin 3072) :
    preI v34 v22 v39 v42 v46 (ix2 p q)
      = ((∑ k : Fin 1024, v34 (ix2 p k) * v39 (ix2 k q)) + ∑ k : Fin 1024, v22 (ix2 p k) * v42 (ix2 k q)) + v46 (ix2 (0 : Fin 1) q) := by
  unfold preI
  show ((_ : EReal) + _) + _ = _
  refine congrArg₂ (· + ·) (congrArg₂ (· + ·) ?_ ?_) ?_
  · rw [shapeCast_self]; exact matmul_gru _ _ p q
  · rw [shapeCast_self]; exact matmul_gru _ _ p q
  · rw [shapeCast_self]; exact bias_row _ _ (by decide) p q

theorem preH_apply (h : FVec Ideal S128x1024 .f32) (v51 : Vec Ideal S1024x3072 .bf16) (v54 : Vec Ideal S1x3072 .f32)
    (p : Fin 128) (q : Fin 3072) :
    preH h v51 v54 (ix2 p q) = (∑ k : Fin 1024, h (ix2 p k) * v51 (ix2 k q)) + v54 (ix2 (0 : Fin 1) q) := by
  unfold preH
  show (_ : EReal) + _ = _
  refine congrArg₂ (· + ·) ?_ ?_
  · rw [shapeCast_self]; exact matmul_gru _ _ p q
  · rw [shapeCast_self]; exact bias_row _ _ (by decide) p q

/-- The body's stored value at (p, j): the GRU cell of the thirds of the block's two pre-activations at row `p`, and the
    decayed state `γh · hs`. -/
theorem result (v20 v22 v34 v35 : Vec Ideal S128x1024 .f32) (v39 v42 : Vec Ideal S1024x3072 .bf16) (v46 : Vec Ideal S1x3072 .f32)
    (v51 : Vec Ideal S1024x3072 .bf16) (v54 : Vec Ideal S1x3072 .f32) (p : Fin 128) (j : Fin 1024) :
    k0_pay1 (F := Ideal) v20 v22 v34 v35 v39 v42 v46 v51 v54 (ix2 p j)
      = cellLogistic oneW
          (preI v34 v22 v39 v42 v46 (ix2 p (c0 j))) (preH (mulf v20 v35) v51 v54 (ix2 p (c0 j)))
          (preI v34 v22 v39 v42 v46 (ix2 p (c1 j))) (preH (mulf v20 v35) v51 v54 (ix2 p (c1 j)))
          (preI v34 v22 v39 v42 v46 (ix2 p (c2 j))) (preH (mulf v20 v35) v51 v54 (ix2 p (c2 j)))
          (v20 (ix2 p j) * v35 (ix2 p j)) := by
  rw [← third0 (preI v34 v22 v39 v42 v46) slices_S128x3072_o0_0_S128x1024 p j,
    ← third0 (preH (mulf v20 v35) v51 v54) slices_S128x3072_o0_0_S128x1024 p j,
    ← third1 (preI v34 v22 v39 v42 v46) slices_S128x3072_o0_1024_S128x1024 p j,
    ← third1 (preH (mulf v20 v35) v51 v54) slices_S128x3072_o0_1024_S128x1024 p j,
    ← third2 (preI v34 v22 v39 v42 v46) slices_S128x3072_o0_2048_S128x1024 p j,
    ← third2 (preH (mulf v20 v35) v51 v54) slices_S128x3072_o0_2048_S128x1024 p j]
  rfl

end Cert.KernelIdeal.Bridge

end
-- ==== Proof.RefStages.lean ====
/-
  The reference's stages read at a batch row `n` and a column, as the formulas of Spec.lean.

  The reference computes each decay gate's pre-activation as a row of `δ` against a row of the weight matrix
  (`δ · Wᵀ`: entry (n, j) contracts δ(n, ·) with W(j, ·)) plus the bias at `j` (`lin_x`, `lin_h`); the gates, the
  imputed input and the decayed state pointwise from those (`gate_x`, `gate_h`, `imputed`, `state`); the input
  pre-activations as ONE contraction over the 2048 columns of [x̂ | m], which is the contraction of x̂ with the first
  1024 rows of W_ih plus the contraction of m with the last 1024 rows (`pre_i`, by `GruD.sum_split`: entry (n, k) of
  the joined array is x̂(n, k) for k < 1024 and m(n, k − 1024) after); the state pre-activations as a contraction
  over 1024 (`pre_h`); and the result as the GRU cell of the three thirds of the two (`result`).
-/
import proofs.«124623_j75462575390850_2_alg».proof.Proof.Gen.ReferenceIdeal.Read
import proofs.«124623_j75462575390850_2_alg».proof.Proof.Spec

noncomputable section

namespace Cert.ReferenceIdeal.Stages

open Cert.ReferenceIdeal Cert.ReferenceIdeal.Read Idealize.ShloMosaic Idealize.ShloMosaic.ValueIdx GruD

/-- A [16384, 1024] array of extended reals. -/
abbrev Rows := (⟨S16384x1024, .f32⟩ : BufTy).Contents (Elt Ideal)
/-- A [1024, 1024] decay weight matrix. -/
abbrev Sq := (⟨S1024x1024, .f32⟩ : BufTy).Contents (Elt Ideal)
/-- A [1024] decay bias. -/
abbrev Bias1 := (⟨S1024, .f32⟩ : BufTy).Contents (Elt Ideal)
/-- The [2048, 3072] input weights. -/
abbrev WIn := (⟨S2048x3072, .f32⟩ : BufTy).Contents (Elt Ideal)
/-- The [1024, 3072] state weights. -/
abbrev WSt := (⟨S1024x3072, .f32⟩ : BufTy).Contents (Elt Ideal)
/-- A [3072] gate bias. -/
abbrev Bias3 := (⟨S3072, .f32⟩ : BufTy).Contents (Elt Ideal)

/-- The float word of zero and of one, as extended reals. -/
abbrev zeroW : EReal := Ideal.ofBits .f32 0x00000000#32
abbrev oneW : EReal := Ideal.ofBits .f32 0x3F800000#32

variable (x0 x1 x2 x3 x4 x5 : Rows) (x6 x8 : Sq) (x7 x9 : Bias1) (x10 : WIn) (x11 : WSt) (x12 x13 : Bias3)

/-! ## The decay gates' pre-activations -/

/-- Entry (n, j) of `δ · Wxᵀ + bx`: row `n` of δ against row `j` of Wx, plus bx(j). -/
theorem lin_x (n : Fin 16384) (j : Fin 1024) :
    val_main_v4 (F := Ideal) x2 x6 x7 (ix2 n j) = (∑ k : Fin 1024, x2 (ix2 n k) * x6 (ix2 j k)) + x7 (ix1 j) := by
  rw [val_main_v4_apply, val_main_v1_apply, val_main_v3_apply, val_main_v2_apply]
  show (_ : EReal) + _ = _
  refine congrArg₂ (· + ·) (Finset.sum_congr rfl fun k _ => ?_) ?_
  · rw [val_main_v0_apply]
    exact congrArg₂ (· * ·)
      (congrArg x2 (funext fun a => Fin.ext (by match a with | ⟨0, _⟩ => rfl | ⟨1, _⟩ => rfl)))
      (congrArg x6 (funext fun a => Fin.ext (by match a with | ⟨0, _⟩ => rfl | ⟨1, _⟩ => rfl)))
  · exact congrArg x7 (funext fun a => Fin.ext (by match a with | ⟨0, _⟩ => rfl))

/-- Entry (n, j) of `δ · Whᵀ + bh`. -/
theorem lin_h (n : Fin 16384) (j : Fin 1024) :
    val_main_v12 (F := Ideal) x2 x8 x9 (ix2 n j) = (∑ k : Fin 1024, x2 (ix2 n k) * x8 (ix2 j k)) + x9 (ix1 j) := by
  rw [val_main_v12_apply, val_main_v9_apply, val_main_v11_apply, val_main_v10_apply]
  show (_ : EReal) + _ = _
  refine congrArg₂ (· + ·) (Finset.sum_congr rfl fun k _ => ?_) ?_
  · rw [val_main_v8_apply]
    exact congrArg₂ (· * ·)
      (congrArg x2 (funext fun a => Fin.ext (by match a with | ⟨0, _⟩ => rfl | ⟨1, _⟩ => rfl)))
      (congrArg x8 (funext fun a => Fin.ext (by match a with | ⟨0, _⟩ => rfl | ⟨1, _⟩ => rfl)))
  · exact congrArg x9 (funext fun a => Fin.ext (by match a with | ⟨0, _⟩ => rfl))

/-! ## The pointwise stages -/

/-- The input's decay gate. -/
theorem gate_x (i : S16384x1024.Idx) :
    val_main_v7 (F := Ideal) x2 x6 x7 i = decay zeroW (val_main_v4 (F := Ideal) x2 x6 x7 i) := rfl

/-- The state's decay gate. -/
theorem gate_h (i : S16384x1024.Idx) :
    val_main_v15 (F := Ideal) x2 x8 x9 i = decay zeroW (val_main_v12 (F := Ideal) x2 x8 x9 i) := rfl

/-- The imputed input. -/
theorem imputed (i : S16384x1024.Idx) :
    val_main_v25 (F := Ideal) x0 x1 x2 x3 x4 x6 x7 i
      = blend oneW (x1 i) (x0 i) (val_main_v7 (F := Ideal) x2 x6 x7 i) (x3 i) (x4 i) := rfl

/-- The decayed state. -/
theorem state (i : S16384x1024.Idx) :
    val_main_v26 (F := Ideal) x2 x5 x8 x9 i = val_main_v15 (F := Ideal) x2 x8 x9 i * x5 i := rfl

/-! ## The GRU pre-activations -/

/-- The joined array [x̂ | m] at a column of the first half is x̂. -/
theorem joined_lo (n : Fin 16384) (k : Fin 1024) :
    val_main_v27 (F := Ideal) x0 x1 x2 x3 x4 x6 x7 (ix2 n (lo2 k)) = val_main_v25 (F := Ideal) x0 x1 x2 x3 x4 x6 x7 (ix2 n k) := by
  unfold val_main_v27
  exact concatenate_pair_apply_left (t := S16384x2048) (s₁ := S16384x1024) (s₂ := S16384x1024) (1 : Fin S16384x2048.rank) _ _ _ (ix2 n (lo2 k)) rfl (ix2 n k)
    (fun b => by match b with | ⟨0, _⟩ => rfl | ⟨1, _⟩ => rfl)

/-- The joined array at a column of the second half is the mask. -/
theorem joined_hi (n : Fin 16384) (k : Fin 1024) :
    val_main_v27 (F := Ideal) x0 x1 x2 x3 x4 x6 x7 (ix2 n (hi2 k)) = x1 (ix2 n k) := by
  unfold val_main_v27
  exact concatenate_pair_apply_right (t := S16384x2048) (s₁ := S16384x1024) (s₂ := S16384x1024) (1 : Fin S16384x2048.rank) _ _ _ (ix2 n (hi2 k)) rfl rfl (ix2 n k)
    (fun b hb => by match b, hb with | ⟨0, _⟩, _ => rfl | ⟨1, _⟩, hb => exact absurd rfl hb)
    (by show k.val + 1024 = 1024 + k.val; omega)

/-- Entry (n, q) of `[x̂ | m] · W_ih + b_ih`: x̂'s row against the first 1024 rows of W_ih, plus the mask's row against the
    last 1024, plus the bias. -/
theorem pre_i (n : Fin 16384) (q : Fin 3072) :
    val_main_v31 (F := Ideal) x0 x1 x2 x3 x4 x6 x7 x10 x12 (ix2 n q)
      = ((∑ k : Fin 1024, val_main_v25 (F := Ideal) x0 x1 x2 x3 x4 x6 x7 (ix2 n k) * x10 (ix2 (lo2 k) q))
          + ∑ k : Fin 1024, x1 (ix2 n k) * x10 (ix2 (hi2 k) q)) + x12 (ix1 q) := by
  rw [val_main_v31_apply, val_main_v28_apply, val_main_v30_apply, val_main_v29_apply]
  show (_ : EReal) + _ = _
  refine congrArg₂ (· + ·) ?_ (congrArg x12 (funext fun a => Fin.ext (by match a with | ⟨0, _⟩ => rfl)))
  rw [sum_split]
  refine congrArg₂ (· + ·) (Finset.sum_congr rfl fun k _ => ?_) (Finset.sum_congr rfl fun k _ => ?_)
  · refine congrArg₂ (· * ·) ?_ (congrArg x10 (funext fun a => Fin.ext (by match a with | ⟨0, _⟩ => rfl | ⟨1, _⟩ => rfl)))
    refine Eq.trans (congrArg _ (funext fun a => Fin.ext (by match a with | ⟨0, _⟩ => rfl | ⟨1, _⟩ => rfl))) (joined_lo x0 x1 x2 x3 x4 x6 x7 n k)
  · refine congrArg₂ (· * ·) ?_ (congrArg x10 (funext fun a => Fin.ext (by match a with | ⟨0, _⟩ => rfl | ⟨1, _⟩ => rfl)))
    refine Eq.trans (congrArg _ (funext fun a => Fin.ext (by match a with | ⟨0, _⟩ => rfl | ⟨1, _⟩ => rfl))) (joined_hi x0 x1 x2 x3 x4 x6 x7 n k)

/-- Entry (n, q) of `h · W_hh + b_hh`. -/
theorem pre_h (n : Fin 16384) (q : Fin 3072) :
    val_main_v35 (F := Ideal) x2 x5 x8 x9 x11 x13 (ix2 n q)
      = (∑ k : Fin 1024, val_main_v26 (F := Ideal) x2 x5 x8 x9 (ix2 n k) * x11 (ix2 k q)) + x13 (ix1 q) := by
  rw [val_main_v35_apply, val_main_v32_apply, val_main_v34_apply, val_main_v33_apply]
  show (_ : EReal) + _ = _
  refine congrArg₂ (· + ·) (Finset.sum_congr rfl fun k _ => ?_) (congrArg x13 (funext fun a => Fin.ext (by match a with | ⟨0, _⟩ => rfl)))
  exact congrArg₂ (· * ·)
    (congrArg _ (funext fun a => Fin.ext (by match a with | ⟨0, _⟩ => rfl | ⟨1, _⟩ => rfl)))
    (congrArg x11 (funext fun a => Fin.ext (by match a with | ⟨0, _⟩ => rfl | ⟨1, _⟩ => rfl)))

/-! ## The thirds of the pre-activations, and the result -/

theorem third_i0 (n : Fin 16384) (j : Fin 1024) :
    val_main_v36 (F := Ideal) x0 x1 x2 x3 x4 x6 x7 x10 x12 (ix2 n j) = val_main_v31 (F := Ideal) x0 x1 x2 x3 x4 x6 x7 x10 x12 (ix2 n (c0 j)) := by
  rw [val_main_v36_apply]
  exact congrArg _ (funext fun a => Fin.ext (by match a with | ⟨0, _⟩ => rfl | ⟨1, _⟩ => rfl))
theorem third_i1 (n : Fin 16384) (j : Fin 1024) :
    val_main_v37 (F := Ideal) x0 x1 x2 x3 x4 x6 x7 x10 x12 (ix2 n j) = val_main_v31 (F := Ideal) x0 x1 x2 x3 x4 x6 x7 x10 x12 (ix2 n (c1 j)) := by
  rw [val_main_v37_apply]
  exact congrArg _ (funext fun a => Fin.ext (by match a with | ⟨0, _⟩ => rfl | ⟨1, _⟩ => rfl))
theorem third_i2 (n : Fin 16384) (j : Fin 1024) :
    val_main_v38 (F := Ideal) x0 x1 x2 x3 x4 x6 x7 x10 x12 (ix2 n j) = val_main_v31 (F := Ideal) x0 x1 x2 x3 x4 x6 x7 x10 x12 (ix2 n (c2 j)) := by
  rw [val_main_v38_apply]
  exact congrArg _ (funext fun a => Fin.ext (by match a with | ⟨0, _⟩ => rfl | ⟨1, _⟩ => rfl))
theorem third_h0 (n : Fin 16384) (j : Fin 1024) :
    val_main_v39 (F := Ideal) x2 x5 x8 x9 x11 x13 (ix2 n j) = val_main_v35 (F := Ideal) x2 x5 x8 x9 x11 x13 (ix2 n (c0 j)) := by
  rw [val_main_v39_apply]
  exact congrArg _ (funext fun a => Fin.ext (by match a with | ⟨0, _⟩ => rfl | ⟨1, _⟩ => rfl))
theorem third_h1 (n : Fin 16384) (j : Fin 1024) :
    val_main_v40 (F := Ideal) x2 x5 x8 x9 x11 x13 (ix2 n j) = val_main_v35 (F := Ideal) x2 x5 x8 x9 x11 x13 (ix2 n (c1 j)) := by
  rw [val_main_v40_apply]
  exact congrArg _ (funext fun a => Fin.ext (by match a with | ⟨0, _⟩ => rfl | ⟨1, _⟩ => rfl))
theorem third_h2 (n : Fin 16384) (j : Fin 1024) :
    val_main_v41 (F := Ideal) x2 x5 x8 x9 x11 x13 (ix2 n j) = val_main_v35 (F := Ideal) x2 x5 x8 x9 x11 x13 (ix2 n (c2 j)) := by
  rw [val_main_v41_apply]
  exact congrArg _ (funext fun a => Fin.ext (by match a with | ⟨0, _⟩ => rfl | ⟨1, _⟩ => rfl))

/-- The result at (n, j): the GRU cell of the thirds of the two pre-activations at row `n`, and the decayed state. -/
theorem result (n : Fin 16384) (j : Fin 1024) :
    val_main_v63 (F := Ideal) x0 x1 x2 x3 x4 x5 x6 x7 x8 x9 x10 x11 x12 x13 (ix2 n j)
      = cell oneW
          (val_main_v31 (F := Ideal) x0 x1 x2 x3 x4 x6 x7 x10 x12 (ix2 n (c0 j))) (val_main_v35 (F := Ideal) x2 x5 x8 x9 x11 x13 (ix2 n (c0 j)))
          (val_main_v31 (F := Ideal) x0 x1 x2 x3 x4 x6 x7 x10 x12 (ix2 n (c1 j))) (val_main_v35 (F := Ideal) x2 x5 x8 x9 x11 x13 (ix2 n (c1 j)))
          (val_main_v31 (F := Ideal) x0 x1 x2 x3 x4 x6 x7 x10 x12 (ix2 n (c2 j))) (val_main_v35 (F := Ideal) x2 x5 x8 x9 x11 x13 (ix2 n (c2 j)))
          (val_main_v26 (F := Ideal) x2 x5 x8 x9 (ix2 n j)) := by
  rw [← third_i0, ← third_i1, ← third_i2, ← third_h0, ← third_h1, ← third_h2]
  rfl

end Cert.ReferenceIdeal.Stages

end
-- ==== Proof.Body.lean ====
/-
  One grid point's work against the reference: if the blocks the body loads are the rows `r p` (p < 128) of the six
  batch arrays, the joined transposed decay weights and biases, the two halves of W_ih, W_hh and the two gate biases
  (`Reads`), then what the body stores at (p, j) is the reference's result at (r p, j).

  The steps follow the computation: the two halves of the joined decay pre-activations are the reference's two
  pre-activations (`lin_x`, `lin_h`: the joined weights' column j is row j of Wx, column 1024 + j row j of Wh); so the gates,
  the imputed input and the decayed state agree (`0 − x = −x`); so the input pre-activations agree (the reference's one
  contraction over [x̂ | m] against W_ih is the body's two contractions added) and the state pre-activations agree; so
  the GRU cells agree (the logistic function is `1 / (1 + exp (−x))`).
-/
import proofs.«124623_j75462575390850_2_alg».proof.Proof.KernelStages
import proofs.«124623_j75462575390850_2_alg».proof.Proof.RefStages

noncomputable section

namespace Cert.Join

open Idealize.ShloMosaic Idealize.ShloMosaic.ValueIdx GruD
open Cert.KernelIdeal.Gen (k0_pay1 k0_pay2 k0_pay3 k0_pay4)
open Cert.KernelIdeal.Bridge (preI preH)
open Cert.ReferenceIdeal.Read (val_main_v4 val_main_v7 val_main_v12 val_main_v15 val_main_v25 val_main_v26 val_main_v31 val_main_v35 val_main_v63)
open Cert.ReferenceIdeal.Stages (Rows Sq Bias1 WIn WSt Bias3)

variable {x0 x1 x2 x3 x4 x5 : Rows} {x6 x8 : Sq} {x7 x9 : Bias1} {x10 : WIn} {x11 : WSt} {x12 x13 : Bias3}
variable {b0 b1 b2 b3 b4 b5 : Vec Ideal Cert.KernelIdeal.S128x1024 .f32} {b6 : Vec Ideal Cert.KernelIdeal.S1024x2048 .bf16}
  {b7 : Vec Ideal Cert.KernelIdeal.S1x2048 .f32} {b8 b9 : Vec Ideal Cert.KernelIdeal.S1024x3072 .bf16}
  {b10 : Vec Ideal Cert.KernelIdeal.S1x3072 .f32} {b11 : Vec Ideal Cert.KernelIdeal.S1024x3072 .bf16}
  {b12 : Vec Ideal Cert.KernelIdeal.S1x3072 .f32}
variable {r : Fin 128 → Fin 16384}

/-- The loaded blocks in terms of the argument arrays: block row `p` is array row `r p`; the joined decay weights hold
    Wx transposed in their first 1024 columns and Wh transposed in their last; the joined bias likewise; the two
    W_ih blocks are its first and last 1024 rows. -/
structure Reads (x0 x1 x2 x3 x4 x5 : Rows) (x6 x8 : Sq) (x7 x9 : Bias1) (x10 : WIn) (x11 : WSt) (x12 x13 : Bias3)
    (b0 b1 b2 b3 b4 b5 : Vec Ideal Cert.KernelIdeal.S128x1024 .f32) (b6 : Vec Ideal Cert.KernelIdeal.S1024x2048 .bf16)
    (b7 : Vec Ideal Cert.KernelIdeal.S1x2048 .f32) (b8 b9 : Vec Ideal Cert.KernelIdeal.S1024x3072 .bf16)
    (b10 : Vec Ideal Cert.KernelIdeal.S1x3072 .f32) (b11 : Vec Ideal Cert.KernelIdeal.S1024x3072 .bf16)
    (b12 : Vec Ideal Cert.KernelIdeal.S1x3072 .f32) (r : Fin 128 → Fin 16384) : Prop where
  x : ∀ (p : Fin 128) (k : Fin 1024), b0 (ix2 p k) = x0 (ix2 (r p) k)
  mask : ∀ (p : Fin 128) (k : Fin 1024), b1 (ix2 p k) = x1 (ix2 (r p) k)
  delta : ∀ (p : Fin 128) (k : Fin 1024), b2 (ix2 p k) = x2 (ix2 (r p) k)
  last : ∀ (p : Fin 128) (k : Fin 1024), b3 (ix2 p k) = x3 (ix2 (r p) k)
  mean : ∀ (p : Fin 128) (k : Fin 1024), b4 (ix2 p k) = x4 (ix2 (r p) k)
  hs : ∀ (p : Fin 128) (k : Fin 1024), b5 (ix2 p k) = x5 (ix2 (r p) k)
  wx : ∀ (k j : Fin 1024), b6 (ix2 k (lo2 j)) = x6 (ix2 j k)
  wh : ∀ (k j : Fin 1024), b6 (ix2 k (hi2 j)) = x8 (ix2 j k)
  bx : ∀ j : Fin 1024, b7 (ix2 (0 : Fin 1) (lo2 j)) = x7 (ix1 j)
  bh : ∀ j : Fin 1024, b7 (ix2 (0 : Fin 1) (hi2 j)) = x9 (ix1 j)
  wiA : ∀ (k : Fin 1024) (q : Fin 3072), b8 (ix2 k q) = x10 (ix2 (lo2 k) q)
  wiB : ∀ (k : Fin 1024) (q : Fin 3072), b9 (ix2 k q) = x10 (ix2 (hi2 k) q)
  bi : ∀ q : Fin 3072, b10 (ix2 (0 : Fin 1) q) = x12 (ix1 q)
  whh : ∀ (k : Fin 1024) (q : Fin 3072), b11 (ix2 k q) = x11 (ix2 k q)
  bhh : ∀ q : Fin 3072, b12 (ix2 (0 : Fin 1) q) = x13 (ix1 q)

variable (H : Reads x0 x1 x2 x3 x4 x5 x6 x8 x7 x9 x10 x11 x12 x13 b0 b1 b2 b3 b4 b5 b6 b7 b8 b9 b10 b11 b12 r)
include H

/-- The first half of the joined decay pre-activations is the input gate's. -/
theorem lin_x (p : Fin 128) (j : Fin 1024) :
    k0_pay2 (F := Ideal) b2 b6 b7 (ix2 p (lo2 j)) = val_main_v4 (F := Ideal) x2 x6 x7 (ix2 (r p) j) := by
  rw [Cert.KernelIdeal.Bridge.pre_gates, Cert.ReferenceIdeal.Stages.lin_x, H.bx]
  exact congrArg (· + x7 (ix1 j)) (Finset.sum_congr rfl fun k _ => by rw [H.delta, H.wx])

/-- The second half is the state gate's. -/
theorem lin_h (p : Fin 128) (j : Fin 1024) :
    k0_pay2 (F := Ideal) b2 b6 b7 (ix2 p (hi2 j)) = val_main_v12 (F := Ideal) x2 x8 x9 (ix2 (r p) j) := by
  rw [Cert.KernelIdeal.Bridge.pre_gates, Cert.ReferenceIdeal.Stages.lin_h, H.bh]
  exact congrArg (· + x9 (ix1 j)) (Finset.sum_congr rfl fun k _ => by rw [H.delta, H.wh])

/-- The state's decay gate. -/
theorem gate_h (p : Fin 128) (j : Fin 1024) :
    k0_pay3 (F := Ideal) b2 b6 b7 (ix2 p j) = val_main_v15 (F := Ideal) x2 x8 x9 (ix2 (r p) j) := by
  rw [Cert.KernelIdeal.Bridge.gate_h, Cert.ReferenceIdeal.Stages.gate_h, decay_sub, lin_h H]

/-- The imputed input. -/
theorem imputed (p : Fin 128) (j : Fin 1024) :
    k0_pay4 (F := Ideal) b2 b6 b7 b0 b1 b3 b4 (ix2 p j) = val_main_v25 (F := Ideal) x0 x1 x2 x3 x4 x6 x7 (ix2 (r p) j) := by
  rw [Cert.KernelIdeal.Bridge.imputed, Cert.ReferenceIdeal.Stages.imputed, Cert.ReferenceIdeal.Stages.gate_x, decay_sub, lin_x H,
    H.x, H.mask, H.last, H.mean]

/-- The decayed state. -/
theorem state (p : Fin 128) (j : Fin 1024) :
    mulf (k0_pay3 (F := Ideal) b2 b6 b7) b5 (ix2 p j) = val_main_v26 (F := Ideal) x2 x5 x8 x9 (ix2 (r p) j) := by
  rw [Cert.ReferenceIdeal.Stages.state, ← gate_h H, ← H.hs]
  rfl

/-- The input pre-activations: the body's two contractions over 1024 are the reference's one over 2048. -/
theorem pre_i (p : Fin 128) (q : Fin 3072) :
    preI (k0_pay4 (F := Ideal) b2 b6 b7 b0 b1 b3 b4) b1 b8 b9 b10 (ix2 p q)
      = val_main_v31 (F := Ideal) x0 x1 x2 x3 x4 x6 x7 x10 x12 (ix2 (r p) q) := by
  rw [Cert.KernelIdeal.Bridge.preI_apply, Cert.ReferenceIdeal.Stages.pre_i, H.bi]
  exact congrArg (· + x12 (ix1 q)) (congrArg₂ (· + ·)
    (Finset.sum_congr rfl fun k _ => by rw [imputed H, H.wiA])
    (Finset.sum_congr rfl fun k _ => by rw [H.mask, H.wiB]))

/-- The state pre-activations. -/
theorem pre_h (p : Fin 128) (q : Fin 3072) :
    preH (mulf (k0_pay3 (F := Ideal) b2 b6 b7) b5) b11 b12 (ix2 p q)
      = val_main_v35 (F := Ideal) x2 x5 x8 x9 x11 x13 (ix2 (r p) q) := by
  rw [Cert.KernelIdeal.Bridge.preH_apply, Cert.ReferenceIdeal.Stages.pre_h, H.bhh]
  exact congrArg (· + x13 (ix1 q)) (Finset.sum_congr rfl fun k _ => by rw [state H, H.whh])

/-- What the body stores at (p, j) is the reference's result at (r p, j). -/
theorem stored (p : Fin 128) (j : Fin 1024) :
    k0_pay1 (F := Ideal) (k0_pay3 (F := Ideal) b2 b6 b7) b1 (k0_pay4 (F := Ideal) b2 b6 b7 b0 b1 b3 b4) b5 b8 b9 b10 b11 b12 (ix2 p j)
      = val_main_v63 (F := Ideal) x0 x1 x2 x3 x4 x5 x6 x7 x8 x9 x10 x11 x12 x13 (ix2 (r p) j) := by
  rw [Cert.KernelIdeal.Bridge.result, Cert.ReferenceIdeal.Stages.result, cell_logistic,
    pre_i H, pre_i H, pre_i H, pre_h H, pre_h H, pre_h H]
  exact congrArg _ (state H p j)

end Cert.Join

end
-- ==== Proof.Blocks.lean ====
/-
  The blocks a grid point's body loads, in terms of the argument arrays.

  The grid has 128 points. At point `t` each of the six batch arrays' windows holds rows 128·t … 128·t + 127 of its
  array (block index (t, 0), block 128 × 1024): block row `p` is array row `128·t + p` (`rowOf`). The seven parameter
  windows hold their whole arrays at every point (block index (0, 0)), and those arrays are made by the host before
  the call: the joined decay weights [Wxᵀ | Whᵀ] (a transpose of each, joined along the columns), the joined bias
  [bx | bh] as one row, the first and the last 1024 rows of W_ih, W_hh, and the two gate biases as one row each —
  read here at an entry (`joinedW_lo` … `bias_row3`). Together: `reads`, what Body.lean asks of a point's blocks.
-/
import proofs.«124623_j75462575390850_2_alg».proof.Proof.Gen.KernelIdeal.Frame
import proofs.«124623_j75462575390850_2_alg».proof.Proof.Body
import Idealize.ShloMosaic.Lib.Pipeline.Value
import Idealize.ShloMosaic.Lib.StableHlo.Run
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx GruD

/-! ## The host-made operands read at an entry -/

section Host

/-- The joined decay weights at (k, j) of the first half: Wx at (j, k). -/
theorem joinedW_lo (w6 w8 : FVec Ideal S1024x1024 .f32) (h1 : S1024x1024.Transposes [1, 0] S1024x1024)
    (h2 : Shape.Concatenates [S1024x1024, S1024x1024] S1024x2048 1) (h3 : FTy.bits .bf16 < FTy.bits .f32) (k j : Fin 1024) :
    (truncf .bf16 (concatenate S1024x2048 1 [⟨S1024x1024, transpose S1024x1024 [1, 0] w6 h1⟩, ⟨S1024x1024, transpose S1024x1024 [1, 0] w8 h1⟩] h2) h3
      : FVec Ideal S1024x2048 .bf16) (ix2 k (lo2 j)) = w6 (ix2 j k) := by
  refine (truncf_apply _ h3 _).trans ?_
  refine (concatenate_pair_apply_left (t := S1024x2048) (s₁ := S1024x1024) (s₂ := S1024x1024) (1 : Fin S1024x2048.rank) _ _ h2
    (ix2 k (lo2 j)) rfl (ix2 k j) (fun b => by match b with | ⟨0, _⟩ => rfl | ⟨1, _⟩ => rfl)).trans ?_
  exact transpose_apply [1, 0] w6 h1 (ix2 k j) (ix2 j k) (fun b => match b with | ⟨0, _⟩ => rfl | ⟨1, _⟩ => rfl)

/-- The joined decay weights at (k, 1024 + j): Wh at (j, k). -/
theorem joinedW_hi (w6 w8 : FVec Ideal S1024x1024 .f32) (h1 : S1024x1024.Transposes [1, 0] S1024x1024)
    (h2 : Shape.Concatenates [S1024x1024, S1024x1024] S1024x2048 1) (h3 : FTy.bits .bf16 < FTy.bits .f32) (k j : Fin 1024) :
    (truncf .bf16 (concatenate S1024x2048 1 [⟨S1024x1024, transpose S1024x1024 [1, 0] w6 h1⟩, ⟨S1024x1024, transpose S1024x1024 [1, 0] w8 h1⟩] h2) h3
      : FVec Ideal S1024x2048 .bf16) (ix2 k (hi2 j)) = w8 (ix2 j k) := by
  refine (truncf_apply _ h3 _).trans ?_
  refine (concatenate_pair_apply_right (t := S1024x2048) (s₁ := S1024x1024) (s₂ := S1024x1024) (1 : Fin S1024x2048.rank) _ _ h2
    (ix2 k (hi2 j)) rfl rfl (ix2 k j)
    (fun b hb => by match b, hb with | ⟨0, _⟩, _ => rfl | ⟨1, _⟩, hb => exact absurd rfl hb)
    (by show j.val + 1024 = 1024 + j.val; omega)).trans ?_
  exact transpose_apply [1, 0] w8 h1 (ix2 k j) (ix2 j k) (fun b => match b with | ⟨0, _⟩ => rfl | ⟨1, _⟩ => rfl)

/-- The joined decay bias, one row, at column j of the first half: bx at j. -/
theorem joinedB_lo (v7 v9 : FVec Ideal S1024 .f32) (h2 : Shape.Concatenates [S1024, S1024] S2048 0) (h3 : S2048.ShapeCasts S1x2048) (j : Fin 1024) :
    shapeCast S1x2048 (concatenate S2048 0 [⟨S1024, v7⟩, ⟨S1024, v9⟩] h2) h3 (ix2 (0 : Fin 1) (lo2 j)) = v7 (ix1 j) := by
  refine (shapeCast_apply _ h3 (ix2 (0 : Fin 1) (lo2 j)) (ix1 (lo2 j)) (by
    rw [Shape.rowMajor_val_one, Shape.rowMajor_val_two]; show j.val = 0 * 2048 + j.val; omega)).trans ?_
  exact concatenate_pair_apply_left (t := S2048) (s₁ := S1024) (s₂ := S1024) (0 : Fin S2048.rank) _ _ h2 (ix1 (lo2 j)) rfl (ix1 j)
    (fun b => by match b with | ⟨0, _⟩ => rfl)

/-- The joined decay bias at column 1024 + j: bh at j. -/
theorem joinedB_hi (v7 v9 : FVec Ideal S1024 .f32) (h2 : Shape.Concatenates [S1024, S1024] S2048 0) (h3 : S2048.ShapeCasts S1x2048) (j : Fin 1024) :
    shapeCast S1x2048 (concatenate S2048 0 [⟨S1024, v7⟩, ⟨S1024, v9⟩] h2) h3 (ix2 (0 : Fin 1) (hi2 j)) = v9 (ix1 j) := by
  refine (shapeCast_apply _ h3 (ix2 (0 : Fin 1) (hi2 j)) (ix1 (hi2 j)) (by
    rw [Shape.rowMajor_val_one, Shape.rowMajor_val_two]; show 1024 + j.val = 0 * 2048 + (1024 + j.val); omega)).trans ?_
  exact concatenate_pair_apply_right (t := S2048) (s₁ := S1024) (s₂ := S1024) (0 : Fin S2048.rank) _ _ h2 (ix1 (hi2 j)) rfl rfl (ix1 j)
    (fun b hb => by match b, hb with | ⟨0, _⟩, hb => exact absurd rfl hb)
    (by show j.val + 1024 = 1024 + j.val; omega)

/-- The first 1024 rows of W_ih. -/
theorem rows_lo (w10 : FVec Ideal S2048x3072 .f32) (h : S2048x3072.Slices ![0, 0] S1024x3072) (h3 : FTy.bits .bf16 < FTy.bits .f32)
    (k : Fin 1024) (q : Fin 3072) :
    (truncf .bf16 (extractStridedSlice S1024x3072 ![0, 0] w10 h) h3 : FVec Ideal S1024x3072 .bf16) (ix2 k q) = w10 (ix2 (lo2 k) q) := by
  show extractStridedSlice S1024x3072 ![0, 0] w10 h (ix2 k q) = _
  exact extractStridedSlice_apply ![0, 0] w10 h (ix2 k q) (ix2 (lo2 k) q) (fun a => by
    match a with
    | ⟨0, _⟩ => show k.val = 0 + k.val; omega
    | ⟨1, _⟩ => show q.val = 0 + q.val; omega)

/-- The last 1024 rows of W_ih. -/
theorem rows_hi (w10 : FVec Ideal S2048x3072 .f32) (h : S2048x3072.Slices ![1024, 0] S1024x3072) (h3 : FTy.bits .bf16 < FTy.bits .f32)
    (k : Fin 1024) (q : Fin 3072) :
    (truncf .bf16 (extractStridedSlice S1024x3072 ![1024, 0] w10 h) h3 : FVec Ideal S1024x3072 .bf16) (ix2 k q) = w10 (ix2 (hi2 k) q) := by
  show extractStridedSlice S1024x3072 ![1024, 0] w10 h (ix2 k q) = _
  exact extractStridedSlice_apply ![1024, 0] w10 h (ix2 k q) (ix2 (hi2 k) q) (fun a => by
    match a with
    | ⟨0, _⟩ => rfl
    | ⟨1, _⟩ => show q.val = 0 + q.val; omega)

/-- A gate bias as one row, at column q. -/
theorem bias_row3 (v : FVec Ideal S3072 .f32) (h : S3072.ShapeCasts S1x3072) (q : Fin 3072) :
    shapeCast S1x3072 v h (ix2 (0 : Fin 1) q) = v (ix1 q) :=
  shapeCast_apply v h (ix2 (0 : Fin 1) q) (ix1 q) (by
    rw [Shape.rowMajor_val_one, Shape.rowMajor_val_two]; show q.val = 0 * 3072 + q.val; omega)

end Host

/-! ## The windows' block indices over the grid -/

theorem t_lt (t : Fin cfg0.N) : t.val < 128 := lt_of_lt_of_eq t.isLt N_0

/-- The array row that block row `p` is at grid point `t`. -/
def rowOf (t : Fin cfg0.N) (p : Fin 128) : Fin 16384 := ⟨t.val * 128 + p.val, by have := t_lt t; have := p.isLt; omega⟩

theorem idx_in0 : ∀ t : Fin cfg0.N, win0_0.index t (0 : Fin 2) = t.val ∧ win0_0.index t (1 : Fin 2) = 0 :=
  (by decide +kernel : ∀ t : Fin grid0.N, _)
theorem idx_in1 : ∀ t : Fin cfg0.N, win0_1.index t (0 : Fin 2) = t.val ∧ win0_1.index t (1 : Fin 2) = 0 :=
  (by decide +kernel : ∀ t : Fin grid0.N, _)
theorem idx_in2 : ∀ t : Fin cfg0.N, win0_2.index t (0 : Fin 2) = t.val ∧ win0_2.index t (1 : Fin 2) = 0 :=
  (by decide +kernel : ∀ t : Fin grid0.N, _)
theorem idx_in3 : ∀ t : Fin cfg0.N, win0_3.index t (0 : Fin 2) = t.val ∧ win0_3.index t (1 : Fin 2) = 0 :=
  (by decide +kernel : ∀ t : Fin grid0.N, _)
theorem idx_in4 : ∀ t : Fin cfg0.N, win0_4.index t (0 : Fin 2) = t.val ∧ win0_4.index t (1 : Fin 2) = 0 :=
  (by decide +kernel : ∀ t : Fin grid0.N, _)
theorem idx_in5 : ∀ t : Fin cfg0.N, win0_5.index t (0 : Fin 2) = t.val ∧ win0_5.index t (1 : Fin 2) = 0 :=
  (by decide +kernel : ∀ t : Fin grid0.N, _)
theorem idx_in13 : ∀ t : Fin cfg0.N, win0_13.index t (0 : Fin 2) = t.val ∧ win0_13.index t (1 : Fin 2) = 0 :=
  (by decide +kernel : ∀ t : Fin grid0.N, _)
theorem idx_par6 : ∀ t : Fin cfg0.N, win0_6.index t (0 : Fin 2) = 0 ∧ win0_6.index t (1 : Fin 2) = 0 :=
  (by decide +kernel : ∀ t : Fin grid0.N, _)
theorem idx_par7 : ∀ t : Fin cfg0.N, win0_7.index t (0 : Fin 2) = 0 ∧ win0_7.index t (1 : Fin 2) = 0 :=
  (by decide +kernel : ∀ t : Fin grid0.N, _)
theorem idx_par8 : ∀ t : Fin cfg0.N, win0_8.index t (0 : Fin 2) = 0 ∧ win0_8.index t (1 : Fin 2) = 0 :=
  (by decide +kernel : ∀ t : Fin grid0.N, _)
theorem idx_par9 : ∀ t : Fin cfg0.N, win0_9.index t (0 : Fin 2) = 0 ∧ win0_9.index t (1 : Fin 2) = 0 :=
  (by decide +kernel : ∀ t : Fin grid0.N, _)
theorem idx_par10 : ∀ t : Fin cfg0.N, win0_10.index t (0 : Fin 2) = 0 ∧ win0_10.index t (1 : Fin 2) = 0 :=
  (by decide +kernel : ∀ t : Fin grid0.N, _)
theorem idx_par11 : ∀ t : Fin cfg0.N, win0_11.index t (0 : Fin 2) = 0 ∧ win0_11.index t (1 : Fin 2) = 0 :=
  (by decide +kernel : ∀ t : Fin grid0.N, _)
theorem idx_par12 : ∀ t : Fin cfg0.N, win0_12.index t (0 : Fin 2) = 0 ∧ win0_12.index t (1 : Fin 2) = 0 :=
  (by decide +kernel : ∀ t : Fin grid0.N, _)

/-! ## The arrays the parameter windows stage, as the host made them -/

variable (m : (ℓ : Loc nD τ sig) → Buf (Elt Ideal) ℓ)

theorem V_joinedW (c : Dev nD) : (V m c main_v3 : S1024x2048.Idx → EReal)
    = (truncf .bf16 (concatenate S1024x2048 1 [⟨S1024x1024, transpose S1024x1024 [1, 0] (m ((c : Thread nD τ).loc main_arg6)) transposes_S1024x1024_S1024x1024_1_0⟩,
        ⟨S1024x1024, transpose S1024x1024 [1, 0] (m ((c : Thread nD τ).loc main_arg8)) transposes_S1024x1024_S1024x1024_1_0⟩]
        concatenates_S1024x1024_S1024x1024_S1024x2048_d1) bitsLt_bf16_f32 : FVec Ideal S1024x2048 .bf16) := by
  dsimp only [Gen.V, Gen.hostOps0]; after_results; all_goals rfl

theorem V_joinedB (c : Dev nD) : (V m c main_v5 : S1x2048.Idx → EReal)
    = shapeCast S1x2048 (concatenate S2048 0 [⟨S1024, m ((c : Thread nD τ).loc main_arg7)⟩, ⟨S1024, m ((c : Thread nD τ).loc main_arg9)⟩]
        concatenates_S1024_S1024_S2048_d0) shapeCasts_S2048_S1x2048 := by
  dsimp only [Gen.V, Gen.hostOps0]; after_results; all_goals rfl

theorem V_wiA (c : Dev nD) : (V m c main_v7 : S1024x3072.Idx → EReal)
    = (truncf .bf16 (extractStridedSlice S1024x3072 ![0, 0] (m ((c : Thread nD τ).loc main_arg10)) slices_S2048x3072_S1024x3072_0_0) bitsLt_bf16_f32
        : FVec Ideal S1024x3072 .bf16) := by
  dsimp only [Gen.V, Gen.hostOps0]; after_results; all_goals rfl

theorem V_wiB (c : Dev nD) : (V m c main_v9 : S1024x3072.Idx → EReal)
    = (truncf .bf16 (extractStridedSlice S1024x3072 ![1024, 0] (m ((c : Thread nD τ).loc main_arg10)) slices_S2048x3072_S1024x3072_1024_0) bitsLt_bf16_f32
        : FVec Ideal S1024x3072 .bf16) := by
  dsimp only [Gen.V, Gen.hostOps0]; after_results; all_goals rfl

theorem V_whh (c : Dev nD) : (V m c main_v10 : S1024x3072.Idx → EReal)
    = (truncf .bf16 (m ((c : Thread nD τ).loc main_arg11)) bitsLt_bf16_f32 : FVec Ideal S1024x3072 .bf16) := by
  dsimp only [Gen.V, Gen.hostOps0]; after_results; all_goals rfl

theorem V_bi (c : Dev nD) : (V m c main_v11 : S1x3072.Idx → EReal)
    = shapeCast S1x3072 (m ((c : Thread nD τ).loc main_arg12)) shapeCasts_S3072_S1x3072 := by
  dsimp only [Gen.V, Gen.hostOps0]; after_results; all_goals rfl

theorem V_bhh (c : Dev nD) : (V m c main_v12 : S1x3072.Idx → EReal)
    = shapeCast S1x3072 (m ((c : Thread nD τ).loc main_arg13)) shapeCasts_S3072_S1x3072 := by
  dsimp only [Gen.V, Gen.hostOps0]; after_results; all_goals rfl

/-! ## The batch windows' blocks: block row p is array row 128·t + p -/

theorem rows_x (c : Dev nD) (t : Fin cfg0.N) (p : Fin 128) (k : Fin 1024) :
    iblk m c 0 t (ix2 p k) = m ((c : Thread nD τ).loc main_arg0) (ix2 (rowOf t p) k) := by
  show V m c main_arg0 (((cfg0.win 0).blk t).view.emb (ix2 p k)) = _
  obtain ⟨e0, e1⟩ := idx_in0 t
  refine (congrFun (V_main_arg0 m c) _).trans (congrArg _ (funext fun a => Fin.ext ?_))
  match a with
  | ⟨0, _⟩ => show win0_0.index t (0 : Fin 2) * 128 + 1 * p.val = t.val * 128 + p.val; rw [e0]; omega
  | ⟨1, _⟩ => show win0_0.index t (1 : Fin 2) * 1024 + 1 * k.val = k.val; rw [e1]; omega

theorem rows_mask (c : Dev nD) (t : Fin cfg0.N) (p : Fin 128) (k : Fin 1024) :
    iblk m c 1 t (ix2 p k) = m ((c : Thread nD τ).loc main_arg1) (ix2 (rowOf t p) k) := by
  show V m c main_arg1 (((cfg0.win 1).blk t).view.emb (ix2 p k)) = _
  obtain ⟨e0, e1⟩ := idx_in1 t
  refine (congrFun (V_main_arg1 m c) _).trans (congrArg _ (funext fun a => Fin.ext ?_))
  match a with
  | ⟨0, _⟩ => show win0_1.index t (0 : Fin 2) * 128 + 1 * p.val = t.val * 128 + p.val; rw [e0]; omega
  | ⟨1, _⟩ => show win0_1.index t (1 : Fin 2) * 1024 + 1 * k.val = k.val; rw [e1]; omega

theorem rows_delta (c : Dev nD) (t : Fin cfg0.N) (p : Fin 128) (k : Fin 1024) :
    iblk m c 2 t (ix2 p k) = m ((c : Thread nD τ).loc main_arg2) (ix2 (rowOf t p) k) := by
  show V m c main_arg2 (((cfg0.win 2).blk t).view.emb (ix2 p k)) = _
  obtain ⟨e0, e1⟩ := idx_in2 t
  refine (congrFun (V_main_arg2 m c) _).trans (congrArg _ (funext fun a => Fin.ext ?_))
  match a with
  | ⟨0, _⟩ => show win0_2.index t (0 : Fin 2) * 128 + 1 * p.val = t.val * 128 + p.val; rw [e0]; omega
  | ⟨1, _⟩ => show win0_2.index t (1 : Fin 2) * 1024 + 1 * k.val = k.val; rw [e1]; omega

theorem rows_last (c : Dev nD) (t : Fin cfg0.N) (p : Fin 128) (k : Fin 1024) :
    iblk m c 3 t (ix2 p k) = m ((c : Thread nD τ).loc main_arg3) (ix2 (rowOf t p) k) := by
  show V m c main_arg3 (((cfg0.win 3).blk t).view.emb (ix2 p k)) = _
  obtain ⟨e0, e1⟩ := idx_in3 t
  refine (congrFun (V_main_arg3 m c) _).trans (congrArg _ (funext fun a => Fin.ext ?_))
  match a with
  | ⟨0, _⟩ => show win0_3.index t (0 : Fin 2) * 128 + 1 * p.val = t.val * 128 + p.val; rw [e0]; omega
  | ⟨1, _⟩ => show win0_3.index t (1 : Fin 2) * 1024 + 1 * k.val = k.val; rw [e1]; omega

theorem rows_mean (c : Dev nD) (t : Fin cfg0.N) (p : Fin 128) (k : Fin 1024) :
    iblk m c 4 t (ix2 p k) = m ((c : Thread nD τ).loc main_arg4) (ix2 (rowOf t p) k) := by
  show V m c main_arg4 (((cfg0.win 4).blk t).view.emb (ix2 p k)) = _
  obtain ⟨e0, e1⟩ := idx_in4 t
  refine (congrFun (V_main_arg4 m c) _).trans (congrArg _ (funext fun a => Fin.ext ?_))
  match a with
  | ⟨0, _⟩ => show win0_4.index t (0 : Fin 2) * 128 + 1 * p.val = t.val * 128 + p.val; rw [e0]; omega
  | ⟨1, _⟩ => show win0_4.index t (1 : Fin 2) * 1024 + 1 * k.val = k.val; rw [e1]; omega

theorem rows_hs (c : Dev nD) (t : Fin cfg0.N) (p : Fin 128) (k : Fin 1024) :
    iblk m c 5 t (ix2 p k) = m ((c : Thread nD τ).loc main_arg5) (ix2 (rowOf t p) k) := by
  show V m c main_arg5 (((cfg0.win 5).blk t).view.emb (ix2 p k)) = _
  obtain ⟨e0, e1⟩ := idx_in5 t
  refine (congrFun (V_main_arg5 m c) _).trans (congrArg _ (funext fun a => Fin.ext ?_))
  match a with
  | ⟨0, _⟩ => show win0_5.index t (0 : Fin 2) * 128 + 1 * p.val = t.val * 128 + p.val; rw [e0]; omega
  | ⟨1, _⟩ => show win0_5.index t (1 : Fin 2) * 1024 + 1 * k.val = k.val; rw [e1]; omega

/-! ## The parameter windows' blocks: the whole array -/

theorem emb_whole6 (t : Fin cfg0.N) (a : Fin 1024) (b : Fin 2048) :
    ((cfg0.win 6).blk t).view.emb (ix2 a b) = ix2 a b := by
  obtain ⟨e0, e1⟩ := idx_par6 t
  refine funext fun d => Fin.ext ?_
  match d with
  | ⟨0, _⟩ => show win0_6.index t (0 : Fin 2) * 1024 + 1 * a.val = a.val; rw [e0]; omega
  | ⟨1, _⟩ => show win0_6.index t (1 : Fin 2) * 2048 + 1 * b.val = b.val; rw [e1]; omega

theorem emb_whole7 (t : Fin cfg0.N) (a : Fin 1) (b : Fin 2048) :
    ((cfg0.win 7).blk t).view.emb (ix2 a b) = ix2 a b := by
  obtain ⟨e0, e1⟩ := idx_par7 t
  refine funext fun d => Fin.ext ?_
  match d with
  | ⟨0, _⟩ => show win0_7.index t (0 : Fin 2) * 1 + 1 * a.val = a.val; rw [e0]; omega
  | ⟨1, _⟩ => show win0_7.index t (1 : Fin 2) * 2048 + 1 * b.val = b.val; rw [e1]; omega

theorem emb_whole8 (t : Fin cfg0.N) (a : Fin 1024) (b : Fin 3072) :
    ((cfg0.win 8).blk t).view.emb (ix2 a b) = ix2 a b := by
  obtain ⟨e0, e1⟩ := idx_par8 t
  refine funext fun d => Fin.ext ?_
  match d with
  | ⟨0, _⟩ => show win0_8.index t (0 : Fin 2) * 1024 + 1 * a.val = a.val; rw [e0]; omega
  | ⟨1, _⟩ => show win0_8.index t (1 : Fin 2) * 3072 + 1 * b.val = b.val; rw [e1]; omega

theorem emb_whole9 (t : Fin cfg0.N) (a : Fin 1024) (b : Fin 3072) :
    ((cfg0.win 9).blk t).view.emb (ix2 a b) = ix2 a b := by
  obtain ⟨e0, e1⟩ := idx_par9 t
  refine funext fun d => Fin.ext ?_
  match d with
  | ⟨0, _⟩ => show win0_9.index t (0 : Fin 2) * 1024 + 1 * a.val = a.val; rw [e0]; omega
  | ⟨1, _⟩ => show win0_9.index t (1 : Fin 2) * 3072 + 1 * b.val = b.val; rw [e1]; omega

theorem emb_whole10 (t : Fin cfg0.N) (a : Fin 1) (b : Fin 3072) :
    ((cfg0.win 10).blk t).view.emb (ix2 a b) = ix2 a b := by
  obtain ⟨e0, e1⟩ := idx_par10 t
  refine funext fun d => Fin.ext ?_
  match d with
  | ⟨0, _⟩ => show win0_10.index t (0 : Fin 2) * 1 + 1 * a.val = a.val; rw [e0]; omega
  | ⟨1, _⟩ => show win0_10.index t (1 : Fin 2) * 3072 + 1 * b.val = b.val; rw [e1]; omega

theorem emb_whole11 (t : Fin cfg0.N) (a : Fin 1024) (b : Fin 3072) :
    ((cfg0.win 11).blk t).view.emb (ix2 a b) = ix2 a b := by
  obtain ⟨e0, e1⟩ := idx_par11 t
  refine funext fun d => Fin.ext ?_
  match d with
  | ⟨0, _⟩ => show win0_11.index t (0 : Fin 2) * 1024 + 1 * a.val = a.val; rw [e0]; omega
  | ⟨1, _⟩ => show win0_11.index t (1 : Fin 2) * 3072 + 1 * b.val = b.val; rw [e1]; omega

theorem emb_whole12 (t : Fin cfg0.N) (a : Fin 1) (b : Fin 3072) :
    ((cfg0.win 12).blk t).view.emb (ix2 a b) = ix2 a b := by
  obtain ⟨e0, e1⟩ := idx_par12 t
  refine funext fun d => Fin.ext ?_
  match d with
  | ⟨0, _⟩ => show win0_12.index t (0 : Fin 2) * 1 + 1 * a.val = a.val; rw [e0]; omega
  | ⟨1, _⟩ => show win0_12.index t (1 : Fin 2) * 3072 + 1 * b.val = b.val; rw [e1]; omega

theorem blk_wx (c : Dev nD) (t : Fin cfg0.N) (k j : Fin 1024) :
    iblk m c 6 t (ix2 k (lo2 j)) = m ((c : Thread nD τ).loc main_arg6) (ix2 j k) := by
  show V m c main_v3 (((cfg0.win 6).blk t).view.emb (ix2 k (lo2 j))) = _
  rw [emb_whole6, V_joinedW]
  exact joinedW_lo _ _ _ _ _ k j

theorem blk_wh (c : Dev nD) (t : Fin cfg0.N) (k j : Fin 1024) :
    iblk m c 6 t (ix2 k (hi2 j)) = m ((c : Thread nD τ).loc main_arg8) (ix2 j k) := by
  show V m c main_v3 (((cfg0.win 6).blk t).view.emb (ix2 k (hi2 j))) = _
  rw [emb_whole6, V_joinedW]
  exact joinedW_hi _ _ _ _ _ k j

theorem blk_bx (c : Dev nD) (t : Fin cfg0.N) (j : Fin 1024) :
    iblk m c 7 t (ix2 (0 : Fin 1) (lo2 j)) = m ((c : Thread nD τ).loc main_arg7) (ix1 j) := by
  show V m c main_v5 (((cfg0.win 7).blk t).view.emb (ix2 (0 : Fin 1) (lo2 j))) = _
  rw [emb_whole7, V_joinedB]
  exact joinedB_lo _ _ _ _ j

theorem blk_bh (c : Dev nD) (t : Fin cfg0.N) (j : Fin 1024) :
    iblk m c 7 t (ix2 (0 : Fin 1) (hi2 j)) = m ((c : Thread nD τ).loc main_arg9) (ix1 j) := by
  show V m c main_v5 (((cfg0.win 7).blk t).view.emb (ix2 (0 : Fin 1) (hi2 j))) = _
  rw [emb_whole7, V_joinedB]
  exact joinedB_hi _ _ _ _ j

theorem blk_wiA (c : Dev nD) (t : Fin cfg0.N) (k : Fin 1024) (q : Fin 3072) :
    iblk m c 8 t (ix2 k q) = m ((c : Thread nD τ).loc main_arg10) (ix2 (lo2 k) q) := by
  show V m c main_v7 (((cfg0.win 8).blk t).view.emb (ix2 k q)) = _
  rw [emb_whole8, V_wiA]
  exact rows_lo _ _ _ k q

theorem blk_wiB (c : Dev nD) (t : Fin cfg0.N) (k : Fin 1024) (q : Fin 3072) :
    iblk m c 9 t (ix2 k q) = m ((c : Thread nD τ).loc main_arg10) (ix2 (hi2 k) q) := by
  show V m c main_v9 (((cfg0.win 9).blk t).view.emb (ix2 k q)) = _
  rw [emb_whole9, V_wiB]
  exact rows_hi _ _ _ k q

theorem blk_bi (c : Dev nD) (t : Fin cfg0.N) (q : Fin 3072) :
    iblk m c 10 t (ix2 (0 : Fin 1) q) = m ((c : Thread nD τ).loc main_arg12) (ix1 q) := by
  show V m c main_v11 (((cfg0.win 10).blk t).view.emb (ix2 (0 : Fin 1) q)) = _
  rw [emb_whole10, V_bi]
  exact bias_row3 _ _ q

theorem blk_whh (c : Dev nD) (t : Fin cfg0.N) (k : Fin 1024) (q : Fin 3072) :
    iblk m c 11 t (ix2 k q) = m ((c : Thread nD τ).loc main_arg11) (ix2 k q) := by
  show V m c main_v10 (((cfg0.win 11).blk t).view.emb (ix2 k q)) = _
  rw [emb_whole11, V_whh]
  rfl

theorem blk_bhh (c : Dev nD) (t : Fin cfg0.N) (q : Fin 3072) :
    iblk m c 12 t (ix2 (0 : Fin 1) q) = m ((c : Thread nD τ).loc main_arg13) (ix1 q) := by
  show V m c main_v12 (((cfg0.win 12).blk t).view.emb (ix2 (0 : Fin 1) q)) = _
  rw [emb_whole12, V_bhh]
  exact bias_row3 _ _ q

/-- A grid point's blocks are what Body.lean asks: rows `rowOf t ·` of the batch arrays, and the parameters. -/
theorem reads (c : Dev nD) (t : Fin cfg0.N) :
    Cert.Join.Reads
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg8)) (m ((c : Thread nD τ).loc main_arg7))
      (m ((c : Thread nD τ).loc main_arg9)) (m ((c : Thread nD τ).loc main_arg10)) (m ((c : Thread nD τ).loc main_arg11))
      (m ((c : Thread nD τ).loc main_arg12)) (m ((c : Thread nD τ).loc main_arg13))
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (rowOf t) where
  x := rows_x m c t
  mask := rows_mask m c t
  delta := rows_delta m c t
  last := rows_last m c t
  mean := rows_mean m c t
  hs := rows_hs m c t
  wx := blk_wx m c t
  wh := blk_wh m c t
  bx := blk_bx m c t
  bh := blk_bh m c t
  wiA := blk_wiA m c t
  wiB := blk_wiB m c t
  bi := blk_bi m c t
  whh := blk_whh m c t
  bhh := blk_bhh m c t

end Cert.KernelIdeal.Blocks

end
-- ==== Proof.Final.lean ====
/-
  The kernel's result array after the run is the reference's function of the kernel's argument arrays.

  At grid point `t` the body's one store covers the output window's 128 × 1024 staging buffer, so what the point writes
  back is the body's stored value; by Body.lean (over the blocks of Blocks.lean) that is, at (p, j), the reference's
  result at (128·t + p, j) — block `t` of the reference's function `spec` of the argument arrays (`flushed_eq`). The
  output's blocks are the 128 bands of 128 rows: row `n` is in the block of point `n / 128` (`cover`). So the whole
  array ends at `spec` (`final`), and the frame run is re-posted with the result array named (`run`).
-/
import proofs.«124623_j75462575390850_2_alg».proof.Proof.Gen.KernelIdeal.Value
import proofs.«124623_j75462575390850_2_alg».proof.Proof.Blocks

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx GruD Cert.KernelIdeal.Blocks
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The reference's function of the kernel's fourteen argument arrays: what the result array ends holding. -/
abbrev spec (c : Dev nD) : S16384x1024.Idx → EReal :=
  Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- What the body stores at an entry of the block at point `t`: the reference's result at the entry's array row. -/
theorem stored_at (c : Dev nD) (t : Fin cfg0.N) (y : S128x1024.Idx) :
    k0_pay1 (F := Ideal) (k0_pay3 (F := Ideal) (iblk m c 2 t) (iblk m c 6 t) (iblk m c 7 t)) (iblk m c 1 t)
        (k0_pay4 (F := Ideal) (iblk m c 2 t) (iblk m c 6 t) (iblk m c 7 t) (iblk m c 0 t) (iblk m c 1 t) (iblk m c 3 t) (iblk m c 4 t))
        (iblk m c 5 t) (iblk m c 8 t) (iblk m c 9 t) (iblk m c 10 t) (iblk m c 11 t) (iblk m c 12 t) y
      = spec m c (ix2 (rowOf t (y 0)) (y 1)) := by
  obtain ⟨p, j, rfl⟩ : ∃ (p : Fin 128) (j : Fin 1024), y = ix2 p j := ⟨y 0, y 1, eq_ix2 y⟩
  exact Cert.Join.stored (reads m c t) p j

/-- WHAT POINT `t` WRITES BACK is block `t` of `spec`. -/
theorem flushed_eq (c : Dev nD) (t : Fin cfg0.N) :
    (dats m 0 c).flushed 13 t = ((cfg0.win 13).blk t).view.read (Elt Ideal) (spec m c) := by
  rw [Cert.KernelIdeal.Value.flushed13]
  unfold out0_13
  rw [View.canon_unit_zero zero_offsets]
  simp only [View.ld_unit_zero (S := S128x1024) zero_offsets, View.ld_unit_zero (S := S1024x2048) zero_offsets,
    View.ld_unit_zero (S := S1x2048) zero_offsets, View.ld_unit_zero (S := S1024x3072) zero_offsets,
    View.ld_unit_zero (S := S1x3072) zero_offsets]
  funext y
  refine (stored_at m c t y).trans ?_
  show spec m c _ = spec m c (((cfg0.win 13).blk t).view.emb y)
  obtain ⟨e0, e1⟩ := idx_in13 t
  refine congrArg _ (funext fun a => Fin.ext ?_)
  match a with
  | ⟨0, _⟩ => show t.val * 128 + (y 0).val = win0_13.index t (0 : Fin 2) * 128 + 1 * (y 0).val; rw [e0]; omega
  | ⟨1, _⟩ => show (y 1).val = win0_13.index t (1 : Fin 2) * 1024 + 1 * (y 1).val; rw [e1]; omega

/-- An index of the array is in point `t`'s block iff each coordinate is in the block's range on its axis. -/
theorem mem_blk (t : Fin cfg0.N) (i : S16384x1024.Idx) :
    i ∈ ((cfg0.win 13).blk t).view.set ↔ ∀ a : Fin 2, win0_13.index t a * S128x1024.size a ≤ (i a).val ∧ (i a).val < win0_13.index t a * S128x1024.size a + S128x1024.size a := by
  show i ∈ ((View.whole main_v13).slice (win0_13.rect t)).set ↔ _
  rw [View.set_slice_whole, Rect.mem_set_unit]
  exact Iff.rfl

/-- Every index of the array is in the block of the point its row's band names. -/
theorem cover (i : S16384x1024.Idx) : ∃ t : Fin cfg0.N, (cfg0.win 13).flush t = true ∧ i ∈ ((cfg0.win 13).blk t).view.set := by
  have hi0 : (i 0).val < 16384 := (i 0).isLt
  have hi1 : (i 1).val < 1024 := (i 1).isLt
  obtain ⟨t, ht⟩ : ∃ t : Fin cfg0.N, t.val = (i 0).val / 128 :=
    ⟨⟨(i 0).val / 128, lt_of_lt_of_eq (by omega : (i 0).val / 128 < 128) N_0.symm⟩, rfl⟩
  obtain ⟨e0, e1⟩ := idx_in13 t
  refine ⟨t, flush0_13 t, ?_⟩
  rw [mem_blk]
  intro a
  match a with
  | ⟨0, _⟩ => show win0_13.index t (0 : Fin 2) * 128 ≤ (i 0).val ∧ (i 0).val < win0_13.index t (0 : Fin 2) * 128 + 128; rw [e0, ht]; omega
  | ⟨1, _⟩ => show win0_13.index t (1 : Fin 2) * 1024 ≤ (i 1).val ∧ (i 1).val < win0_13.index t (1 : Fin 2) * 1024 + 1024; rw [e1]; omega

/-- THE ARRAY after the run is `spec` of the argument arrays. -/
theorem final (c : Dev nD) : (dats m 0 c).arrAt 13 cfg0.N = spec m c :=
  (dats m 0 c).arrAt_eq_of_cover 13 (spec m c) (fun t _ => flushed_eq m c t) cover

/-- The frame run re-posted: the result array at `spec`, the arguments unchanged. -/
theorem run : θ_run defs (onTc (τ := τ) (main (F := Ideal))) ⟨m, fun _ => 0, ρ⟩ fun r => ∀ c : Dev nD,
      r.2.mem ((c : Thread nD τ).loc main_v13) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Cert.KernelIdeal.Value.run_blocks m ρ)

end Cert.KernelIdeal.Result

end
-- ==== Proof.lean ====
/-
  A GRU-D step (gated recurrent unit with decay for irregularly sampled series), one fused Pallas kernel over 128 bands
  of 128 batch rows against its jnp reference, equal on the extended reals.

  Both compute, for a batch row n and a hidden column j: two decay gates γ = exp (−max (δ·Wᵀ + b, 0)) from the time gaps
  δ; the imputed input x̂ = m·x + (1 − m)·(γx·x_last + (1 − γx)·x_mean) and the decayed state h = γh·hs; the gate
  pre-activations gi = [x̂ | m]·W_ih + b_ih and gh = h·W_hh + b_hh; and the GRU cell (1 − z)·tanh (gi_n + r·gh_n) + z·h with
  r, z the logistic function of the sums of the reset and update thirds. The kernel differs from the reference in its
  arrangement only: one product against the joined weights [Wxᵀ | Whᵀ] for both decay gates; two products over 1024
  columns, added, where the reference contracts over the 2048 joined columns of [x̂ | m]; bf16 operands for the
  products (a change of float format is the identity on the extended reals); `0 − x` for a negation; the logistic
  function as one operation. Proof/Spec.lean has the three laws that join them — cutting a finite sum in two,
  `0 − x = −x`, and `logistic x = 1 / (1 + exp (−x))` —, none of which needs a finite argument, so the precondition is
  not opened.

  The modules: Spec (the formulas and laws), RefStages (the reference's stages at an entry), MatmulAt and KernelStages
  (the kernel body's values at an entry of a block), Body (a grid point's work is the reference's on its 128 rows),
  Blocks (what a grid point's blocks hold of the argument arrays), Final (the result array after the run). The three
  frames are the generated ones (the reference's is its generated run with the result dropped); the idealization
  rewrote no operation, so `preserves` has nothing to state.
-/
import proofs.«124623_j75462575390850_2_alg».proof.Defs
import proofs.«124623_j75462575390850_2_alg».proof.Proof.Gen.Kernel
import proofs.«124623_j75462575390850_2_alg».proof.Proof.Gen.Kernel.Skeleton
import proofs.«124623_j75462575390850_2_alg».proof.Proof.Gen.Kernel.Launch
import proofs.«124623_j75462575390850_2_alg».proof.Proof.Gen.Kernel.Points
import proofs.«124623_j75462575390850_2_alg».proof.Proof.Gen.Kernel.Frame
import proofs.«124623_j75462575390850_2_alg».proof.Proof.Gen.KernelIdeal
import proofs.«124623_j75462575390850_2_alg».proof.Proof.Gen.KernelIdeal.Skeleton
import proofs.«124623_j75462575390850_2_alg».proof.Proof.Gen.KernelIdeal.Launch
import proofs.«124623_j75462575390850_2_alg».proof.Proof.Gen.KernelIdeal.Points
import proofs.«124623_j75462575390850_2_alg».proof.Proof.Gen.KernelIdeal.Frame
import proofs.«124623_j75462575390850_2_alg».proof.Proof.Gen.KernelIdeal.Value
import proofs.«124623_j75462575390850_2_alg».proof.Proof.Gen.ReferenceIdeal
import proofs.«124623_j75462575390850_2_alg».proof.Proof.Gen.ReferenceIdeal.Run
import proofs.«124623_j75462575390850_2_alg».proof.Proof.Gen.ReferenceIdeal.Read
import proofs.«124623_j75462575390850_2_alg».proof.Proof.Gen.Pre_finite_inputs
import proofs.«124623_j75462575390850_2_alg».proof.Proof.Final
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at the reference's function of the kernel's arguments (Final.lean); the reference's at
    the same function of its own (its generated run), and the two memories agree on the arguments. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v63_eq, a0, a1, a2, a3, a4, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
